-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg18 : FVec F S64x64 .f32) (main_arg19 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg18
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  main_v98

def fn_part4 {F : FTy → Type} [FloatOps F] (main_arg14 : FVec F S64x64 .f32) (main_arg15 : FVec F S64 .f32) (main_arg16 : FVec F S64x64 .f32) (main_arg17 : FVec F S64 .f32) (main_arg18 : FVec F S64x64 .f32) (main_arg19 : FVec F S64 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_v13 : IVec S_ 1) (main_v16 : IVec S16384x16384 1) : IVec S_ 1 :=
  let main_c_5 : IVec S_ 1 := constantI S_ 1 1#1
  let main_v17 : IVec S_ 1 := (fun x v => Host.reduce IntOp.andi x v reducesTo_S16384x16384_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S16384x64 .f32) (main_arg1 : FVec F S16384x64 .f32) (main_arg2 : FVec F S16384x64 .f32) (main_arg3 : FVec F S16384x16384 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  let main_v14 : FVec F S16384x16384 .f32 := Host.absf main_arg3
  let main_cst_4 : FVec F S_ .f32 := constant S_ .f32 0x7F800000#32
  let main_v15 : FVec F S16384x16384 .f32 := broadcastInDim S16384x16384 ![] bcast_S_S16384x16384 main_cst_4
  let main_v16 : IVec S16384x16384 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S256x64 : Shape := ⟨2, ![256, 64]⟩
abbrev S256 : Shape := ⟨1, ![256]⟩
abbrev S16384x128 : Shape := ⟨2, ![16384, 128]⟩
abbrev S256x16384 : Shape := ⟨2, ![256, 16384]⟩
abbrev S256x128 : Shape := ⟨2, ![256, 128]⟩
abbrev S256x2048 : Shape := ⟨2, ![256, 2048]⟩
abbrev S2048x64 : Shape := ⟨2, ![2048, 64]⟩
abbrev S256x256 : Shape := ⟨2, ![256, 256]⟩
abbrev S1x256 : Shape := ⟨2, ![1, 256]⟩

abbrev nBuf : Space → Nat
  | .hbm => 28
  | .vmem => 13
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S16384x16384, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S16384x64, .bf16⟩
  | .hbm, ⟨21, _⟩ => ⟨S256x64, .f32⟩
  | .hbm, ⟨22, _⟩ => ⟨S256, .f32⟩
  | .hbm, ⟨23, _⟩ => ⟨S256x64, .f32⟩
  | .hbm, ⟨24, _⟩ => ⟨S256, .f32⟩
  | .hbm, ⟨25, _⟩ => ⟨S16384x128, .f32⟩
  | .hbm, ⟨26, _⟩ => ⟨S16384x64, .f32⟩
  | .hbm, ⟨27, _⟩ => ⟨S16384x64, .f32⟩
  | .local _ .vmem, ⟨0, _⟩ => ⟨S256x16384, .f32⟩
  | .local _ .vmem, ⟨1, _⟩ => ⟨S256x16384, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S16384x64, .bf16⟩
  | .local _ .vmem, ⟨7, _⟩ => ⟨S256x64, .f32⟩
  | .local _ .vmem, ⟨8, _⟩ => ⟨S256, .f32⟩
  | .local _ .vmem, ⟨9, _⟩ => ⟨S256x64, .f32⟩
  | .local _ .vmem, ⟨10, _⟩ => ⟨S256, .f32⟩
  | .local _ .vmem, ⟨11, _⟩ => ⟨S256x128, .f32⟩
  | .local _ .vmem, ⟨12, _⟩ => ⟨S256x128, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c2048_i32 : BitVec 32 := 2048#32
  let v41 : BitVec 32 := Scalar.muli arg10 c2048_i32
  v41
def k0_off1 (k0_t1 : Fin k0_t1_loop.trips) : Fin 2 → Nat :=
  let c0_14 : Index := 0#32
  let c0_i32 : BitVec 32 := 0#32
  let c1_i32 : BitVec 32 := 1#32
  let arg10 : BitVec 32 := Scf.iv c0_i32 c1_i32 k0_t1
  let c2048_i32 : BitVec 32 := 2048#32
  let v41 : BitVec 32 := Scalar.muli arg10 c2048_i32
  let v42 : BitVec 32 := v41
  let v43 : Index := Scalar.indexCast v42
  ![0, v43.toNat]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c2048_i32 : BitVec 32 := 2048#32
  let v41 : BitVec 32 := Scalar.muli arg10 c2048_i32
  let v42 : BitVec 32 := v41
  let v46 : Index := Scalar.indexCast v42
  let c0_15 : Index := 0#32
  ![v46.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16384x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  concatenates_S64x64_S64x64_S64x64_S64x64_S256x64_d0 : Shape.Concatenates [S64x64, S64x64, S64x64, S64x64] S256x64 0
  concatenates_S64_S64_S64_S64_S256_d0 : Shape.Concatenates [S64, S64, S64, S64] S256 0
  h_S256x2048 : 0 < S256x2048.numel
  h_S2048x64 : 0 < S2048x64.numel
  shapeCasts_S2048x64_S2048x64 : S2048x64.ShapeCasts S2048x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S256x256 : S1x256.Broadcasts S256x256
  slices_S256x256_o0_0_S256x64 : S256x256.Slices ![0, 0] S256x64
  slices_S256x256_o0_64_S256x64 : S256x256.Slices ![0, 64] S256x64
  slices_S256x256_o0_128_S256x64 : S256x256.Slices ![0, 128] S256x64
  slices_S256x256_o0_192_S256x64 : S256x256.Slices ![0, 192] S256x64
  concatenates_S256x64_S256x64_S256x128_d1 : Shape.Concatenates [S256x64, S256x64] S256x128 1
  inb_S256x128_S256x128_0_0 : ∀ a, (![0, 0] : Fin 2 → Nat) a + S256x128.size a ≤ S256x128.size a
  h_S256x128 : 0 < S256x128.numel
  slices_S16384x128_S16384x64_0_0 : S16384x128.Slices ![0, 0] S16384x64
  slices_S16384x128_S16384x64_0_64 : S16384x128.Slices ![0, 64] S16384x64
  dot_S256x2048_S2048x64_S256x64_1_0_0_1_n_n_wf : DotDims.WF S256x2048 S2048x64 S256x64 [1] [0] [0] [1] [] []
  dot_S256x64_S256x64_S256x256_1_1_0_0_n_n_wf : DotDims.WF S256x64 S256x64 S256x256 [1] [1] [0] [0] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S256x2048.size a ≤ S256x16384.size a
  k0_off2_inb : ∀ k0_t1 : Fin k0_t1_loop.trips, ∀ a, (k0_off2 k0_t1) a + S2048x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S16384x64.size a
  hwx0_1 : ∀ i : grid0.Coords, EltTy.bits .f32 = 32 ∨ (Rect.block (s := S16384x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S16384x64.size a
  hwx0_2 : ∀ i : grid0.Coords, EltTy.bits .f32 = 32 ∨ (Rect.block (s := S16384x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16384x64.size a ≤ S16384x64.size a
  hwx0_3 : ∀ i : grid0.Coords, EltTy.bits .bf16 = 32 ∨ (Rect.block (s := S16384x64) S16384x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .f32 = 32 ∨ (Rect.block (s := S256x64) S256x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S16384x128.size a
  hwx0_8 : ∀ i : grid0.Coords, EltTy.bits .f32 = 32 ∨ (Rect.block (s := S16384x128) S256x128.size (cc0_transform_8 i) (hinb0_8 i)).WholeWords (EltTy.packing .f32)

variable [Facts₀]

def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf

abbrev win0_0 : Pipeline.Window sig grid0 :=
  Pipeline.Window.ofSpec (Memref.whole main_arg3) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16384x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x64 : Shape := ⟨2, ![1, 64]⟩
abbrev S_ : Shape := ⟨0, ![]⟩

abbrev nBuf : Space → Nat
  | .hbm => 95
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S16384x16384, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S16384x64, .f32⟩
  | .hbm, ⟨21, _⟩ => ⟨S64x64, .f32⟩
  | .hbm, ⟨22, _⟩ => ⟨S16384x64, .f32⟩
  | .hbm, ⟨23, _⟩ => ⟨S1x64, .f32⟩
  | .hbm, ⟨24, _⟩ => ⟨S16384x64, .f32⟩
  | .hbm, ⟨25, _⟩ => ⟨S16384x64, .f32⟩
  | .hbm, ⟨26, _⟩ => ⟨S64x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S16384x64, .f32⟩
  | .hbm, ⟨33, _⟩ => ⟨S16384x64, .f32⟩
  | .hbm, ⟨34, _⟩ => ⟨S_, .f32⟩
  | .hbm, ⟨35, _⟩ => ⟨S16384x64, .f32⟩
  | .hbm, ⟨36, _⟩ => ⟨S16384x64, .f32⟩
  | .hbm, ⟨37, _⟩ => ⟨S_, .f32⟩
  | .hbm, ⟨38, _⟩ => ⟨S16384x64, .f32⟩
  | .hbm, ⟨39, _⟩ => ⟨S16384x64, .f32⟩
  | .hbm, ⟨40, _⟩ => ⟨S64x64, .f32⟩
  | .hbm, ⟨41, _⟩ => ⟨S16384x64, .f32⟩
  | .hbm, ⟨42, _⟩ => ⟨S1x64, .f32⟩
  | .hbm, ⟨43, _⟩ => ⟨S16384x64, .f32⟩
  | .hbm, ⟨44, _⟩ => ⟨S16384x64, .f32⟩
  | .hbm, ⟨45, _⟩ => ⟨S64x64, .f32⟩
  | .hbm, ⟨46, _⟩ => ⟨S16384x64, .f32⟩
  | .hbm, ⟨47, _⟩ => ⟨S1x64, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S16384x64, .f32⟩
  | .hbm, ⟨53, _⟩ => ⟨S_, .f32⟩
  | .hbm, ⟨54, _⟩ => ⟨S16384x64, .f32⟩
  | .hbm, ⟨55, _⟩ => ⟨S16384x64, .f32⟩
  | .hbm, ⟨56, _⟩ => ⟨S_, .f32⟩
  | .hbm, ⟨57, _⟩ => ⟨S16384x64, .f32⟩
  | .hbm, ⟨58, _⟩ => ⟨S16384x64, .f32⟩
  | .hbm, ⟨59, _⟩ => ⟨S64x64, .f32⟩
  | .hbm, ⟨60, _⟩ => ⟨S16384x64, .f32⟩
  | .hbm, ⟨61, _⟩ => ⟨S1x64, .f32⟩
  | .hbm, ⟨62, _⟩ => ⟨S16384x64, .f32⟩
  | .hbm, ⟨63, _⟩ => ⟨S16384x64, .f32⟩
  | .hbm, ⟨64, _⟩ => ⟨S64x64, .f32⟩
  | .hbm, ⟨65, _⟩ => ⟨S16384x64, .f32⟩
  | .hbm, ⟨66, _⟩ => ⟨S1x64, .f32⟩
  | .hbm, ⟨67, _⟩ => ⟨S16384x64, .f32⟩
  | .hbm, ⟨68, _⟩ => ⟨S16384x64, .f32⟩
  | .hbm, ⟨69, _⟩ => ⟨S16384x64, .f32⟩
  | .hbm, ⟨70, _⟩ => ⟨S16384x64, .f32⟩
  | .hbm, ⟨71, _⟩ => ⟨S16384x64, .f32⟩
  | .hbm, ⟨72, _⟩ => ⟨S_, .f32⟩
  | .hbm, ⟨73, _⟩ => ⟨S16384x64, .f32⟩
  | .hbm, ⟨74, _⟩ => ⟨S16384x64, .f32⟩
  | .hbm, ⟨75, _⟩ => ⟨S_, .f32⟩
  | .hbm, ⟨76, _⟩ => ⟨S16384x64, .f32⟩
  | .hbm, ⟨77, _⟩ => ⟨S16384x64, .f32⟩
  | .hbm, ⟨78, _⟩ => ⟨S64x64, .f32⟩
  | .hbm, ⟨79, _⟩ => ⟨S16384x64, .f32⟩
  | .hbm, ⟨80, _⟩ => ⟨S1x64, .f32⟩
  | .hbm, ⟨81, _⟩ => ⟨S16384x64, .f32⟩
  | .hbm, ⟨82, _⟩ => ⟨S16384x64, .f32⟩
  | .hbm, ⟨83, _⟩ => ⟨S64x64, .f32⟩
  | .hbm, ⟨84, _⟩ => ⟨S16384x64, .f32⟩
  | .hbm, ⟨85, _⟩ => ⟨S1x64, .f32⟩
  | .hbm, ⟨86, _⟩ => ⟨S16384x64, .f32⟩
  | .hbm, ⟨87, _⟩ => ⟨S16384x64, .f32⟩
  | .hbm, ⟨88, _⟩ => ⟨S16384x64, .f32⟩
  | .hbm, ⟨89, _⟩ => ⟨S16384x64, .f32⟩
  | .hbm, ⟨90, _⟩ => ⟨S16384x64, .f32⟩
  | .hbm, ⟨91, _⟩ => ⟨S16384x64, .f32⟩
  | .hbm, ⟨92, _⟩ => ⟨S16384x64, .f32⟩
  | .hbm, ⟨93, _⟩ => ⟨S16384x64, .f32⟩
  | .hbm, ⟨94, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.KLoopValue.lean ====
/-
  The running sum the body carries through its eight-trip loop.

  A row tile's adjacency block has 16384 columns; the loop walks them in eight slabs of 2048. Trip k loads the
  slab of columns 2048 k … 2048 k + 2047 of the adjacency block and the matching 2048 rows of the (whole) previous
  hidden state, multiplies them, and adds the product to the value carried from trip k - 1; the loop starts from
  zero. `accAt x h k` is that value before trip k, as a function of what the two buffers READ (`x` the adjacency
  block, `h` the hidden state): a recursion over the trips in which nothing about memory remains. The loop's own
  bookkeeping of the carried value is a recursion of the same shape over the buffers' raw contents; `carried_eq`
  identifies the two, trip by trip.
-/
import proofs.«140344_j68436008895010_2_alg».proof.Proof.Gen.Kernel.Loops
import Idealize.ShloMosaic.Lib.Pipeline.FrameBody

noncomputable section

namespace Cert.Kernel.Hand

open Idealize.ShloMosaic Idealize.ShloMosaic.TcCoe Idealize.SL Idealize.SL.Sem
open Cert.Kernel Cert.Kernel.Gen

variable {F : FTy → Type} [FloatOps F]

/-- Columns 2048 k … 2048 k + 2047 of the 256 × 16384 adjacency block. -/
abbrev slabA (k : Fin k0_t1_loop.trips) : Rect S256x16384 :=
  Rect.unit (s := S256x16384) (k0_off1 k) S256x2048.size (k0_off1_inb k)

/-- Rows 2048 k … 2048 k + 2047 of the 16384 × 64 hidden state. -/
abbrev slabH (k : Fin k0_t1_loop.trips) : Rect S16384x64 :=
  Rect.unit (s := S16384x64) (k0_off2 k) S2048x64.size (k0_off2_inb k)

/-- The carried value before trip `k`: zero, then one slab product added per trip. -/
def accAt (x : Vec F S256x16384 .f32) (h : Vec F S16384x64 .bf16) : ℕ → FVec F S256x64 .f32
  | 0 => k0_pay1 (F := F)
  | k + 1 =>
    if hk : k < k0_t1_loop.trips then
      k0_pay2 (F := F) (accAt x h k) (View.ld x (slabA ⟨k, hk⟩)) (View.ld h (slabH ⟨k, hk⟩))
    else accAt x h k

theorem accAt_succ (x : Vec F S256x16384 .f32) (h : Vec F S16384x64 .bf16) (k : Fin k0_t1_loop.trips) :
    accAt x h (k.val + 1) = k0_pay2 (F := F) (accAt x h k.val) (View.ld x (slabA k)) (View.ld h (slabH k)) := by
  rw [accAt.eq_2]; exact dif_pos k.isLt

/-- One trip's result as the loop records it is the slab product added to the carried value, the two slabs read
    through the buffers' views. -/
theorem trip_eq (𝒱 : Variants) (c : Dev nD) (bd : Option 𝒱.V) (i : grid0.Coords) (arg1 : Memref sig .tc .vmem S256x16384 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S16384x64 .bf16) (harg4 : arg4.IsWhole) (arg5 : Memref sig .tc .vmem S256x64 .f32) (harg5 : arg5.IsWhole) (arg6 : Memref sig .tc .vmem S256 .f32) (harg6 : arg6.IsWhole) (arg7 : Memref sig .tc .vmem S256x64 .f32) (harg7 : arg7.IsWhole) (arg8 : Memref sig .tc .vmem S256 .f32) (harg8 : arg8.IsWhole) (arg9 : Memref sig .tc .vmem S256x128 .f32) (harg9 : arg9.IsWhole)
    (X1 : BufTy.Contents (Elt F) arg1.view.ty) (X4 : BufTy.Contents (Elt F) arg4.view.ty) (k : Fin k0_t1_loop.trips) (acc : FVec F S256x64 .f32) :
    tripR_k0_t1 (F := F) 𝒱 c bd i arg1 harg1 arg2 harg2 arg3 harg3 arg4 harg4 arg5 harg5 arg6 harg6 arg7 harg7 arg8 harg8 arg9 harg9 X1 X4 k acc
      = k0_pay2 (F := F) acc (View.ld (arg1.view.read (Elt F) X1) (slabA k)) (View.ld (arg4.view.read (Elt F) X4) (slabH k)) := by
  unfold tripR_k0_t1 trip_k0_t1
  rfl

/-- The loop's carried value before trip `k`, from zero, is `accAt` of what the two buffers read. -/
theorem carried_eq (𝒱 : Variants) (c : Dev nD) (bd : Option 𝒱.V) (i : grid0.Coords) (arg1 : Memref sig .tc .vmem S256x16384 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S16384x64 .bf16) (harg4 : arg4.IsWhole) (arg5 : Memref sig .tc .vmem S256x64 .f32) (harg5 : arg5.IsWhole) (arg6 : Memref sig .tc .vmem S256 .f32) (harg6 : arg6.IsWhole) (arg7 : Memref sig .tc .vmem S256x64 .f32) (harg7 : arg7.IsWhole) (arg8 : Memref sig .tc .vmem S256 .f32) (harg8 : arg8.IsWhole) (arg9 : Memref sig .tc .vmem S256x128 .f32) (harg9 : arg9.IsWhole)
    (X1 : BufTy.Contents (Elt F) arg1.view.ty) (X4 : BufTy.Contents (Elt F) arg4.view.ty) (k : ℕ) :
    st_k0_t1 (F := F) 𝒱 c bd i arg1 harg1 arg2 harg2 arg3 harg3 arg4 harg4 arg5 harg5 arg6 harg6 arg7 harg7 arg8 harg8 arg9 harg9 X1 X4 (k0_pay1 (F := F)) k
      = accAt (arg1.view.read (Elt F) X1) (arg4.view.read (Elt F) X4) k := by
  induction k with
  | zero => rfl
  | succ k ih =>
    rw [st_k0_t1.eq_2, accAt.eq_2]
    unfold st_k0_t1Step
    by_cases hk : k < k0_t1_loop.trips
    · rw [dif_pos hk, dif_pos hk, trip_eq, ih]
    · rw [dif_neg hk, dif_neg hk, ih]

end Cert.Kernel.Hand

end
-- ==== Proof.KBody.lean ====
/-
  What one grid point's body does to its nine staging buffers.

  The body reads the adjacency block (through the eight-trip loop, with the whole previous hidden state), the
  input block, the previous cell block, the two stacked weight matrices and the two stacked bias vectors, and
  writes ONE whole 256 × 128 block. So after the body the eight input buffers hold what they held, and the output
  buffer reads as that one store's value: the gating arithmetic applied to the loop's final running sum and to the
  seven blocks loaded whole. (The body also loads the output buffer before storing into it; the value is unused.)
-/
import proofs.«140344_j68436008895010_2_alg».proof.Proof.Gen.Kernel.Launch
import proofs.«140344_j68436008895010_2_alg».proof.Proof.Gen.Kernel.Points
import proofs.«140344_j68436008895010_2_alg».proof.Proof.KLoopValue
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The whole 256 × 128 output block, the whole 256 × 64 blocks and the whole 256-vectors, as the rectangles the
    body loads and stores through. -/
abbrev rOut : Rect S256x128 := Rect.unit (s := S256x128) ![0, 0] S256x128.size inb_S256x128_S256x128_0_0
abbrev rBlk : Rect S256x64 := Rect.unit (s := S256x64) ![0, 0] S256x64.size inb_S256x64_S256x64_0_0
abbrev rVec : Rect S256 := Rect.unit (s := S256) ![0] S256.size inb_S256_S256_0

/-- The output buffer after the body, from what the eight input buffers read: the one whole-block store of the
    gating arithmetic over the loop's final sum and the blocks loaded whole. -/
def outBlock (x0 : Vec F S256x16384 .f32) (x1 x2 : Vec F S256x64 .f32) (x3 : Vec F S16384x64 .bf16)
    (x4 : Vec F S256x64 .f32) (x5 : Vec F S256 .f32) (x6 : Vec F S256x64 .f32) (x7 : Vec F S256 .f32) : Vec F S256x128 .f32 :=
  View.canon [⟨rOut, k0_pay3 (F := F) (accAt x0 x3 k0_t1_loop.trips) (View.ld x1 rBlk) (View.ld x2 rBlk) (View.ld x4 rBlk)
    (View.ld x5 rVec) (View.ld x6 rBlk) (View.ld x7 rVec)⟩]

/-- The one store is of the whole block, so it covers the buffer. -/
theorem outCover (p0 : Vec F S256x128 .f32) (y : S256x128.Idx) :
    ∃ pc ∈ ([⟨rOut, p0⟩] : List (View.Piece (Elt F) S256x128 .f32)), y ∈ pc.1.set :=
  View.cover_of_tiled [⟨rOut, p0⟩] S256x128.size (by rfl) y

set_option maxHeartbeats 4000000 in
/-- The body on whole staging memrefs, the inputs' at read contents `xW` and the output's at anything, runs to the
    continuation holding the inputs' as they were and the output's at `outBlock` of the inputs'. -/
theorem sound_kernel (c : Dev nD) (E : Set ℕ) (i : grid0.Coords) (arg1 : Memref sig .tc .vmem S256x16384 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S16384x64 .bf16) (harg4 : arg4.IsWhole) (arg5 : Memref sig .tc .vmem S256x64 .f32) (harg5 : arg5.IsWhole) (arg6 : Memref sig .tc .vmem S256 .f32) (harg6 : arg6.IsWhole) (arg7 : Memref sig .tc .vmem S256x64 .f32) (harg7 : arg7.IsWhole) (arg8 : Memref sig .tc .vmem S256 .f32) (harg8 : arg8.IsWhole) (arg9 : Memref sig .tc .vmem S256x128 .f32) (harg9 : arg9.IsWhole)
    (x0 : Vec F S256x16384 .f32) (x1 x2 : Vec F S256x64 .f32) (x3 : Vec F S16384x64 .bf16)
    (x4 : Vec F S256x64 .f32) (x5 : Vec F S256 .f32) (x6 : Vec F S256x64 .f32) (x7 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (outBlock x0 x1 x2 x3 x4 x5 x6 x7)) -∗ K ⟨⟩))
      ⊢ wp frame (wpE (defs₀ (F := F)) Variants.none c none) E (cc0__gst_lstm_kernel i arg1 harg1 arg2 harg2 arg3 harg3 arg4 harg4 arg5 harg5 arg6 harg6 arg7 harg7 arg8 harg8 arg9 harg9) K := by
  simp only [cc0__gst_lstm_kernel_eq_skeleton]; unfold cc0__gst_lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (outCover _)]
  unfold outBlock
  sl_unfold_run_names
  rw [carried_eq]
  rfl

end Cert.Kernel.Hand

end
-- ==== Proof.KFrame.lean ====
/-
  The program around its one region, and the region's run.

  The program first prepares five arrays from its arguments on the host (the previous hidden state in the
  narrower format, and the four gates' weight matrices and bias vectors stacked), then runs the region over 64 row
  tiles, then cuts the region's 16384 × 128 result into its left and right halves. The region stages, per tile,
  the tile's adjacency rows, input rows and previous-cell rows (each fetched afresh at every tile), and keeps the
  hidden state and the four stacked arrays resident (fetched once); it writes back one 256 × 128 block per tile.

  Stated here: what every array holds when the region is entered (`V`: an argument the host lines do not write
  is as launched); each window's block at a tile (`blockAt`); that an input's staging buffer holds its block at
  every tile, fetched there or not; what the body leaves (`Hand.outBlock` of the blocks); the run of the whole
  program from these; and what the run's final state says of the twenty arguments (unchanged) and of the two
  results (the two halves of the region's output array).
-/
import proofs.«140344_j68436008895010_2_alg».proof.Proof.KBody
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core `c`'s buffer contents when the region is entered: the launch contents after the five host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its five host lines, the region, and its two closing host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing lines touch only the region's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the region's arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

/-- A buffer none of the five host lines writes is, at the region's entry, as launched. -/
theorem V_of_unwritten (c : Dev nD) (b : Ref sig .tc)
    (hb : b ≠ main_v0 ∧ b ≠ main_v1 ∧ b ≠ main_v2 ∧ b ≠ main_v3 ∧ b ≠ main_v4) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.nary_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

/-- A buffer that is none of the region's arrays and that neither the opening nor the closing host lines write
    ends as launched. -/
theorem W_of_unwritten (dats : (p : Fin 1) → (c : Dev nD) → Dat τ (Elt F) Unit ℕ (UR sig nD τ) ℕ (cfgs p) c) (c : Dev nD) (b : Ref sig .tc)
    (hb : b ≠ main_v0 ∧ b ≠ main_v1 ∧ b ≠ main_v2 ∧ b ≠ main_v3 ∧ b ≠ main_v4) (hb' : b ≠ main_v6 ∧ b ≠ main_v7)
    (harr : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact ⟨StableHlo.devRef_ne_of_ne hb'.1, StableHlo.devRef_ne_of_ne hb'.2⟩)),
    Pipeline.withArrays_of_ne _ c (V0 m c) _ b harr]
  exact V_of_unwritten m c b hb

/-- The first result is the left half (columns 0 … 63) of the region's output array as the region leaves it, -/
theorem W_left (dats : (p : Fin 1) → (c : Dev nD) → Dat τ (Elt F) Unit ℕ (UR sig nD τ) ℕ (cfgs p) c) (c : Dev nD) :
    Pipeline.afterTail₀ cfgs dats 0 (V0 m) [hostOps1] c main_v6
      = extractStridedSlice S16384x64 ![0, 0] ((dats 0 c).arrAt 8 cfg0.N) slices_S16384x128_S16384x64_0_0 := by
  unfold Pipeline.afterTail₀
  show StableHlo.after hostOps1 _ (Proc.devRef .tc main_v6) = _
  after_results
  exact congrArg (fun X => extractStridedSlice S16384x64 ![0, 0] X slices_S16384x128_S16384x64_0_0)
    (Pipeline.withArrays_arr spec0 launch0.win.arr_inj c _ _ 8)

/-- and the second result its right half (columns 64 … 127). -/
theorem W_right (dats : (p : Fin 1) → (c : Dev nD) → Dat τ (Elt F) Unit ℕ (UR sig nD τ) ℕ (cfgs p) c) (c : Dev nD) :
    Pipeline.afterTail₀ cfgs dats 0 (V0 m) [hostOps1] c main_v7
      = extractStridedSlice S16384x64 ![0, 64] ((dats 0 c).arrAt 8 cfg0.N) slices_S16384x128_S16384x64_0_64 := by
  unfold Pipeline.afterTail₀
  show StableHlo.after hostOps1 _ (Proc.devRef .tc main_v7) = _
  after_results
  exact congrArg (fun X => extractStridedSlice S16384x64 ![0, 64] X slices_S16384x128_S16384x64_0_64)
    (Pipeline.withArrays_arr spec0 launch0.win.arr_inj c _ _ 8)

/-! ## The windows' blocks -/

/-- Window `w`'s block at tile `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every tile, fetched there or not (a window fetched
    once has the same block index at every tile), for any proof data whose arrays are the entry contents and whose
    body leaves the block in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The proof data -/

/-- On core `c`: the arrays as the region finds them; after the body at tile `t` each input's buffer at its block
    and the output's at `outBlock` of the input blocks; the invariant the scoped rest, untouched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => outBlock (blockAt m c 0 t) (blockAt m c 1 t) (blockAt m c 2 t) (blockAt m c 3 t) (blockAt m c 4 t)
        (blockAt m c 5 t) (blockAt m c 6 t) (blockAt m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = blockAt m c 7 t := by dsimp only [dats]
theorem after8 (c : Dev nD) (t : Fin cfg0.N) : (dats m 0 c).after 8 t
    = outBlock (blockAt m c 0 t) (blockAt m c 1 t) (blockAt m c 2 t) (blockAt m c 3 t) (blockAt m c 4 t)
        (blockAt m c 5 t) (blockAt m c 6 t) (blockAt m c 7 t) := by dsimp only [dats]

theorem before0 (c : Dev nD) (t : Fin cfg0.N) (d) : (dats m 0 c).before 0 t d = blockAt m c 0 t := before_in0 m (dats m 0 c) (A_eq m c 0) (after0 m c) t d
theorem before1 (c : Dev nD) (t : Fin cfg0.N) (d) : (dats m 0 c).before 1 t d = blockAt m c 1 t := before_in1 m (dats m 0 c) (A_eq m c 1) (after1 m c) t d
theorem before2 (c : Dev nD) (t : Fin cfg0.N) (d) : (dats m 0 c).before 2 t d = blockAt m c 2 t := before_in2 m (dats m 0 c) (A_eq m c 2) (after2 m c) t d
theorem before3 (c : Dev nD) (t : Fin cfg0.N) (d) : (dats m 0 c).before 3 t d = blockAt m c 3 t := before_in3 m (dats m 0 c) (A_eq m c 3) (after3 m c) t d
theorem before4 (c : Dev nD) (t : Fin cfg0.N) (d) : (dats m 0 c).before 4 t d = blockAt m c 4 t := before_in4 m (dats m 0 c) (A_eq m c 4) (after4 m c) t d
theorem before5 (c : Dev nD) (t : Fin cfg0.N) (d) : (dats m 0 c).before 5 t d = blockAt m c 5 t := before_in5 m (dats m 0 c) (A_eq m c 5) (after5 m c) t d
theorem before6 (c : Dev nD) (t : Fin cfg0.N) (d) : (dats m 0 c).before 6 t d = blockAt m c 6 t := before_in6 m (dats m 0 c) (A_eq m c 6) (after6 m c) t d
theorem before7 (c : Dev nD) (t : Fin cfg0.N) (d) : (dats m 0 c).before 7 t d = blockAt m c 7 t := before_in7 m (dats m 0 c) (A_eq m c 7) (after7 m c) t d

/-! ## The body obligation, at a generic tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any tile: the inputs' buffers hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (blockAt m c 0 t) (blockAt m c 1 t) (blockAt m c 2 t) (blockAt m c 3 t) (blockAt m c 4 t) (blockAt m c 5 t)
    (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every tile. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and every final state
    has every array of the region at what the proof data computes and every other unscoped buffer as the closing
    lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## What the final state says -/

/-- A buffer that bypasses the region and that no host line writes ends as launched. -/
theorem kept_bypassing (r : PUnit × MemSt nD τ sig (Elt F))
    (h : Pipeline.FramePost cfgs (dats m) 0 (Pipeline.afterTail₀ cfgs (dats m) 0 (V0 m) [hostOps1]) r) (c : Dev nD) (b : Ref sig .tc)
    (hs : b.isScoped = false) (harr : ∀ w, Pipeline.arrRef spec0 w ≠ b)
    (hb : b ≠ main_v0 ∧ b ≠ main_v1 ∧ b ≠ main_v2 ∧ b ≠ main_v3 ∧ b ≠ main_v4) (hb' : b ≠ main_v6 ∧ b ≠ main_v7) :
    r.2.mem ((c.tc : Thread nD τ).loc b) = m ((c.tc : Thread nD τ).loc b) :=
  ((h c).2 b (Pipeline.mem_restRefs_of b hs harr)).trans (W_of_unwritten m (dats m) c b hb hb' harr)

/-- Every weakly fair execution of the program terminates; the two results are the left and right halves of the
    region's output array as the region leaves it (`(dats m 0 c).arrAt 8 N`), and the twenty arguments are as launched:
    the three the region stages because a staged input's array is never written, the seventeen others because no
    host line writes them. -/
theorem run_post : θ_run defs (onTc (τ := τ) (main (F := F))) ⟨m, fun _ => 0, ρ⟩ (fun r => ∀ c : Dev nD,
      r.2.mem ((c.tc : Thread nD τ).loc main_v6)
        = extractStridedSlice S16384x64 ![0, 0] ((dats m 0 c).arrAt 8 cfg0.N) slices_S16384x128_S16384x64_0_0
      ∧ r.2.mem ((c.tc : Thread nD τ).loc main_v7)
        = extractStridedSlice S16384x64 ![0, 64] ((dats m 0 c).arrAt 8 cfg0.N) slices_S16384x128_S16384x64_0_64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨
    ((h c).2 main_v6 (Pipeline.mem_restRefs_of main_v6 (by decide) (by decide))).trans (W_left m (dats m) c),
    ((h c).2 main_v7 (Pipeline.mem_restRefs_of main_v7 (by decide) (by decide))).trans (W_right m (dats m) c),
    ((h c).1 1).trans (((dats m 0 c).arrAt_in 1 rfl _).trans ((A_eq m c 1).trans (V_of_unwritten m c main_arg0 (by decide)))),
    kept_bypassing m _ h c main_arg1 (by decide) (by decide) (by decide) (by decide),
    ((h c).1 2).trans (((dats m 0 c).arrAt_in 2 rfl _).trans ((A_eq m c 2).trans (V_of_unwritten m c main_arg2 (by decide)))),
    ((h c).1 0).trans (((dats m 0 c).arrAt_in 0 rfl _).trans ((A_eq m c 0).trans (V_of_unwritten m c main_arg3 (by decide)))),
    kept_bypassing m _ h c main_arg4 (by decide) (by decide) (by decide) (by decide),
    kept_bypassing m _ h c main_arg5 (by decide) (by decide) (by decide) (by decide),
    kept_bypassing m _ h c main_arg6 (by decide) (by decide) (by decide) (by decide),
    kept_bypassing m _ h c main_arg7 (by decide) (by decide) (by decide) (by decide),
    kept_bypassing m _ h c main_arg8 (by decide) (by decide) (by decide) (by decide),
    kept_bypassing m _ h c main_arg9 (by decide) (by decide) (by decide) (by decide),
    kept_bypassing m _ h c main_arg10 (by decide) (by decide) (by decide) (by decide),
    kept_bypassing m _ h c main_arg11 (by decide) (by decide) (by decide) (by decide),
    kept_bypassing m _ h c main_arg12 (by decide) (by decide) (by decide) (by decide),
    kept_bypassing m _ h c main_arg13 (by decide) (by decide) (by decide) (by decide),
    kept_bypassing m _ h c main_arg14 (by decide) (by decide) (by decide) (by decide),
    kept_bypassing m _ h c main_arg15 (by decide) (by decide) (by decide) (by decide),
    kept_bypassing m _ h c main_arg16 (by decide) (by decide) (by decide) (by decide),
    kept_bypassing m _ h c main_arg17 (by decide) (by decide) (by decide) (by decide),
    kept_bypassing m _ h c main_arg18 (by decide) (by decide) (by decide) (by decide),
    kept_bypassing m _ h c main_arg19 (by decide) (by decide) (by decide) (by decide)⟩) (run_main m ρ)

/-- The frame: the program terminates from any memory and its twenty arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2.2) (run_post m ρ)

end Cert.Kernel.Hand

end
-- ==== Proof.KILoopValue.lean ====
/-
  The running sum the body carries through its eight-trip loop.

  A row tile's adjacency block has 16384 columns; the loop walks them in eight slabs of 2048. Trip k loads the
  slab of columns 2048 k … 2048 k + 2047 of the adjacency block and the matching 2048 rows of the (whole) previous
  hidden state, multiplies them, and adds the product to the value carried from trip k - 1; the loop starts from
  zero. `accAt x h k` is that value before trip k, as a function of what the two buffers READ (`x` the adjacency
  block, `h` the hidden state): a recursion over the trips in which nothing about memory remains. The loop's own
  bookkeeping of the carried value is a recursion of the same shape over the buffers' raw contents; `carried_eq`
  identifies the two, trip by trip.
-/
import proofs.«140344_j68436008895010_2_alg».proof.Proof.Gen.KernelIdeal.Loops
import Idealize.ShloMosaic.Lib.Pipeline.FrameBody

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]

/-- Columns 2048 k … 2048 k + 2047 of the 256 × 16384 adjacency block. -/
abbrev slabA (k : Fin k0_t1_loop.trips) : Rect S256x16384 :=
  Rect.unit (s := S256x16384) (k0_off1 k) S256x2048.size (k0_off1_inb k)

/-- Rows 2048 k … 2048 k + 2047 of the 16384 × 64 hidden state. -/
abbrev slabH (k : Fin k0_t1_loop.trips) : Rect S16384x64 :=
  Rect.unit (s := S16384x64) (k0_off2 k) S2048x64.size (k0_off2_inb k)

/-- The carried value before trip `k`: zero, then one slab product added per trip. -/
def accAt (x : Vec F S256x16384 .f32) (h : Vec F S16384x64 .bf16) : ℕ → FVec F S256x64 .f32
  | 0 => k0_pay1 (F := F)
  | k + 1 =>
    if hk : k < k0_t1_loop.trips then
      k0_pay2 (F := F) (accAt x h k) (View.ld x (slabA ⟨k, hk⟩)) (View.ld h (slabH ⟨k, hk⟩))
    else accAt x h k

theorem accAt_succ (x : Vec F S256x16384 .f32) (h : Vec F S16384x64 .bf16) (k : Fin k0_t1_loop.trips) :
    accAt x h (k.val + 1) = k0_pay2 (F := F) (accAt x h k.val) (View.ld x (slabA k)) (View.ld h (slabH k)) := by
  rw [accAt.eq_2]; exact dif_pos k.isLt

/-- One trip's result as the loop records it is the slab product added to the carried value, the two slabs read
    through the buffers' views. -/
theorem trip_eq (𝒱 : Variants) (c : Dev nD) (bd : Option 𝒱.V) (i : grid0.Coords) (arg1 : Memref sig .tc .vmem S256x16384 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S16384x64 .bf16) (harg4 : arg4.IsWhole) (arg5 : Memref sig .tc .vmem S256x64 .f32) (harg5 : arg5.IsWhole) (arg6 : Memref sig .tc .vmem S256 .f32) (harg6 : arg6.IsWhole) (arg7 : Memref sig .tc .vmem S256x64 .f32) (harg7 : arg7.IsWhole) (arg8 : Memref sig .tc .vmem S256 .f32) (harg8 : arg8.IsWhole) (arg9 : Memref sig .tc .vmem S256x128 .f32) (harg9 : arg9.IsWhole)
    (X1 : BufTy.Contents (Elt F) arg1.view.ty) (X4 : BufTy.Contents (Elt F) arg4.view.ty) (k : Fin k0_t1_loop.trips) (acc : FVec F S256x64 .f32) :
    tripR_k0_t1 (F := F) 𝒱 c bd i arg1 harg1 arg2 harg2 arg3 harg3 arg4 harg4 arg5 harg5 arg6 harg6 arg7 harg7 arg8 harg8 arg9 harg9 X1 X4 k acc
      = k0_pay2 (F := F) acc (View.ld (arg1.view.read (Elt F) X1) (slabA k)) (View.ld (arg4.view.read (Elt F) X4) (slabH k)) := by
  unfold tripR_k0_t1 trip_k0_t1
  rfl

/-- The loop's carried value before trip `k`, from zero, is `accAt` of what the two buffers read. -/
theorem carried_eq (𝒱 : Variants) (c : Dev nD) (bd : Option 𝒱.V) (i : grid0.Coords) (arg1 : Memref sig .tc .vmem S256x16384 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S16384x64 .bf16) (harg4 : arg4.IsWhole) (arg5 : Memref sig .tc .vmem S256x64 .f32) (harg5 : arg5.IsWhole) (arg6 : Memref sig .tc .vmem S256 .f32) (harg6 : arg6.IsWhole) (arg7 : Memref sig .tc .vmem S256x64 .f32) (harg7 : arg7.IsWhole) (arg8 : Memref sig .tc .vmem S256 .f32) (harg8 : arg8.IsWhole) (arg9 : Memref sig .tc .vmem S256x128 .f32) (harg9 : arg9.IsWhole)
    (X1 : BufTy.Contents (Elt F) arg1.view.ty) (X4 : BufTy.Contents (Elt F) arg4.view.ty) (k : ℕ) :
    st_k0_t1 (F := F) 𝒱 c bd i arg1 harg1 arg2 harg2 arg3 harg3 arg4 harg4 arg5 harg5 arg6 harg6 arg7 harg7 arg8 harg8 arg9 harg9 X1 X4 (k0_pay1 (F := F)) k
      = accAt (arg1.view.read (Elt F) X1) (arg4.view.read (Elt F) X4) k := by
  induction k with
  | zero => rfl
  | succ k ih =>
    rw [st_k0_t1.eq_2, accAt.eq_2]
    unfold st_k0_t1Step
    by_cases hk : k < k0_t1_loop.trips
    · rw [dif_pos hk, dif_pos hk, trip_eq, ih]
    · rw [dif_neg hk, dif_neg hk, ih]

end Cert.KernelIdeal.Hand

end
-- ==== Proof.KIBody.lean ====
/-
  What one grid point's body does to its nine staging buffers.

  The body reads the adjacency block (through the eight-trip loop, with the whole previous hidden state), the
  input block, the previous cell block, the two stacked weight matrices and the two stacked bias vectors, and
  writes ONE whole 256 × 128 block. So after the body the eight input buffers hold what they held, and the output
  buffer reads as that one store's value: the gating arithmetic applied to the loop's final running sum and to the
  seven blocks loaded whole. (The body also loads the output buffer before storing into it; the value is unused.)
-/
import proofs.«140344_j68436008895010_2_alg».proof.Proof.Gen.KernelIdeal.Launch
import proofs.«140344_j68436008895010_2_alg».proof.Proof.Gen.KernelIdeal.Points
import proofs.«140344_j68436008895010_2_alg».proof.Proof.KILoopValue
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The whole 256 × 128 output block, the whole 256 × 64 blocks and the whole 256-vectors, as the rectangles the
    body loads and stores through. -/
abbrev rOut : Rect S256x128 := Rect.unit (s := S256x128) ![0, 0] S256x128.size inb_S256x128_S256x128_0_0
abbrev rBlk : Rect S256x64 := Rect.unit (s := S256x64) ![0, 0] S256x64.size inb_S256x64_S256x64_0_0
abbrev rVec : Rect S256 := Rect.unit (s := S256) ![0] S256.size inb_S256_S256_0

/-- The output buffer after the body, from what the eight input buffers read: the one whole-block store of the
    gating arithmetic over the loop's final sum and the blocks loaded whole. -/
def outBlock (x0 : Vec F S256x16384 .f32) (x1 x2 : Vec F S256x64 .f32) (x3 : Vec F S16384x64 .bf16)
    (x4 : Vec F S256x64 .f32) (x5 : Vec F S256 .f32) (x6 : Vec F S256x64 .f32) (x7 : Vec F S256 .f32) : Vec F S256x128 .f32 :=
  View.canon [⟨rOut, k0_pay3 (F := F) (accAt x0 x3 k0_t1_loop.trips) (View.ld x1 rBlk) (View.ld x2 rBlk) (View.ld x4 rBlk)
    (View.ld x5 rVec) (View.ld x6 rBlk) (View.ld x7 rVec)⟩]

/-- The one store is of the whole block, so it covers the buffer. -/
theorem outCover (p0 : Vec F S256x128 .f32) (y : S256x128.Idx) :
    ∃ pc ∈ ([⟨rOut, p0⟩] : List (View.Piece (Elt F) S256x128 .f32)), y ∈ pc.1.set :=
  View.cover_of_tiled [⟨rOut, p0⟩] S256x128.size (by rfl) y

set_option maxHeartbeats 4000000 in
/-- The body on whole staging memrefs, the inputs' at read contents `xW` and the output's at anything, runs to the
    continuation holding the inputs' as they were and the output's at `outBlock` of the inputs'. -/
theorem sound_kernel (c : Dev nD) (E : Set ℕ) (i : grid0.Coords) (arg1 : Memref sig .tc .vmem S256x16384 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S16384x64 .bf16) (harg4 : arg4.IsWhole) (arg5 : Memref sig .tc .vmem S256x64 .f32) (harg5 : arg5.IsWhole) (arg6 : Memref sig .tc .vmem S256 .f32) (harg6 : arg6.IsWhole) (arg7 : Memref sig .tc .vmem S256x64 .f32) (harg7 : arg7.IsWhole) (arg8 : Memref sig .tc .vmem S256 .f32) (harg8 : arg8.IsWhole) (arg9 : Memref sig .tc .vmem S256x128 .f32) (harg9 : arg9.IsWhole)
    (x0 : Vec F S256x16384 .f32) (x1 x2 : Vec F S256x64 .f32) (x3 : Vec F S16384x64 .bf16)
    (x4 : Vec F S256x64 .f32) (x5 : Vec F S256 .f32) (x6 : Vec F S256x64 .f32) (x7 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (outBlock x0 x1 x2 x3 x4 x5 x6 x7)) -∗ K ⟨⟩))
      ⊢ wp frame (wpE (defs₀ (F := F)) Variants.none c none) E (cc0__gst_lstm_kernel i arg1 harg1 arg2 harg2 arg3 harg3 arg4 harg4 arg5 harg5 arg6 harg6 arg7 harg7 arg8 harg8 arg9 harg9) K := by
  simp only [cc0__gst_lstm_kernel_eq_skeleton]; unfold cc0__gst_lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (outCover _)]
  unfold outBlock
  sl_unfold_run_names
  rw [carried_eq]
  rfl

end Cert.KernelIdeal.Hand

end
-- ==== Proof.KIFrame.lean ====
/-
  The program around its one region, and the region's run.

  The program first prepares five arrays from its arguments on the host (the previous hidden state in the
  narrower format, and the four gates' weight matrices and bias vectors stacked), then runs the region over 64 row
  tiles, then cuts the region's 16384 × 128 result into its left and right halves. The region stages, per tile,
  the tile's adjacency rows, input rows and previous-cell rows (each fetched afresh at every tile), and keeps the
  hidden state and the four stacked arrays resident (fetched once); it writes back one 256 × 128 block per tile.

  Stated here: what every array holds when the region is entered (`V`: an argument the host lines do not write
  is as launched); each window's block at a tile (`blockAt`); that an input's staging buffer holds its block at
  every tile, fetched there or not; what the body leaves (`Hand.outBlock` of the blocks); the run of the whole
  program from these; and what the run's final state says of the twenty arguments (unchanged) and of the two
  results (the two halves of the region's output array).
-/
import proofs.«140344_j68436008895010_2_alg».proof.Proof.KIBody
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core `c`'s buffer contents when the region is entered: the launch contents after the five host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its five host lines, the region, and its two closing host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing lines touch only the region's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the region's arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

/-- A buffer none of the five host lines writes is, at the region's entry, as launched. -/
theorem V_of_unwritten (c : Dev nD) (b : Ref sig .tc)
    (hb : b ≠ main_v0 ∧ b ≠ main_v1 ∧ b ≠ main_v2 ∧ b ≠ main_v3 ∧ b ≠ main_v4) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.nary_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

/-- A buffer that is none of the region's arrays and that neither the opening nor the closing host lines write
    ends as launched. -/
theorem W_of_unwritten (dats : (p : Fin 1) → (c : Dev nD) → Dat τ (Elt F) Unit ℕ (UR sig nD τ) ℕ (cfgs p) c) (c : Dev nD) (b : Ref sig .tc)
    (hb : b ≠ main_v0 ∧ b ≠ main_v1 ∧ b ≠ main_v2 ∧ b ≠ main_v3 ∧ b ≠ main_v4) (hb' : b ≠ main_v6 ∧ b ≠ main_v7)
    (harr : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact ⟨StableHlo.devRef_ne_of_ne hb'.1, StableHlo.devRef_ne_of_ne hb'.2⟩)),
    Pipeline.withArrays_of_ne _ c (V0 m c) _ b harr]
  exact V_of_unwritten m c b hb

/-- The first result is the left half (columns 0 … 63) of the region's output array as the region leaves it, -/
theorem W_left (dats : (p : Fin 1) → (c : Dev nD) → Dat τ (Elt F) Unit ℕ (UR sig nD τ) ℕ (cfgs p) c) (c : Dev nD) :
    Pipeline.afterTail₀ cfgs dats 0 (V0 m) [hostOps1] c main_v6
      = extractStridedSlice S16384x64 ![0, 0] ((dats 0 c).arrAt 8 cfg0.N) slices_S16384x128_S16384x64_0_0 := by
  unfold Pipeline.afterTail₀
  show StableHlo.after hostOps1 _ (Proc.devRef .tc main_v6) = _
  after_results
  exact congrArg (fun X => extractStridedSlice S16384x64 ![0, 0] X slices_S16384x128_S16384x64_0_0)
    (Pipeline.withArrays_arr spec0 launch0.win.arr_inj c _ _ 8)

/-- and the second result its right half (columns 64 … 127). -/
theorem W_right (dats : (p : Fin 1) → (c : Dev nD) → Dat τ (Elt F) Unit ℕ (UR sig nD τ) ℕ (cfgs p) c) (c : Dev nD) :
    Pipeline.afterTail₀ cfgs dats 0 (V0 m) [hostOps1] c main_v7
      = extractStridedSlice S16384x64 ![0, 64] ((dats 0 c).arrAt 8 cfg0.N) slices_S16384x128_S16384x64_0_64 := by
  unfold Pipeline.afterTail₀
  show StableHlo.after hostOps1 _ (Proc.devRef .tc main_v7) = _
  after_results
  exact congrArg (fun X => extractStridedSlice S16384x64 ![0, 64] X slices_S16384x128_S16384x64_0_64)
    (Pipeline.withArrays_arr spec0 launch0.win.arr_inj c _ _ 8)

/-! ## The windows' blocks -/

/-- Window `w`'s block at tile `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every tile, fetched there or not (a window fetched
    once has the same block index at every tile), for any proof data whose arrays are the entry contents and whose
    body leaves the block in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The proof data -/

/-- On core `c`: the arrays as the region finds them; after the body at tile `t` each input's buffer at its block
    and the output's at `outBlock` of the input blocks; the invariant the scoped rest, untouched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => outBlock (blockAt m c 0 t) (blockAt m c 1 t) (blockAt m c 2 t) (blockAt m c 3 t) (blockAt m c 4 t)
        (blockAt m c 5 t) (blockAt m c 6 t) (blockAt m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = blockAt m c 7 t := by dsimp only [dats]
theorem after8 (c : Dev nD) (t : Fin cfg0.N) : (dats m 0 c).after 8 t
    = outBlock (blockAt m c 0 t) (blockAt m c 1 t) (blockAt m c 2 t) (blockAt m c 3 t) (blockAt m c 4 t)
        (blockAt m c 5 t) (blockAt m c 6 t) (blockAt m c 7 t) := by dsimp only [dats]

theorem before0 (c : Dev nD) (t : Fin cfg0.N) (d) : (dats m 0 c).before 0 t d = blockAt m c 0 t := before_in0 m (dats m 0 c) (A_eq m c 0) (after0 m c) t d
theorem before1 (c : Dev nD) (t : Fin cfg0.N) (d) : (dats m 0 c).before 1 t d = blockAt m c 1 t := before_in1 m (dats m 0 c) (A_eq m c 1) (after1 m c) t d
theorem before2 (c : Dev nD) (t : Fin cfg0.N) (d) : (dats m 0 c).before 2 t d = blockAt m c 2 t := before_in2 m (dats m 0 c) (A_eq m c 2) (after2 m c) t d
theorem before3 (c : Dev nD) (t : Fin cfg0.N) (d) : (dats m 0 c).before 3 t d = blockAt m c 3 t := before_in3 m (dats m 0 c) (A_eq m c 3) (after3 m c) t d
theorem before4 (c : Dev nD) (t : Fin cfg0.N) (d) : (dats m 0 c).before 4 t d = blockAt m c 4 t := before_in4 m (dats m 0 c) (A_eq m c 4) (after4 m c) t d
theorem before5 (c : Dev nD) (t : Fin cfg0.N) (d) : (dats m 0 c).before 5 t d = blockAt m c 5 t := before_in5 m (dats m 0 c) (A_eq m c 5) (after5 m c) t d
theorem before6 (c : Dev nD) (t : Fin cfg0.N) (d) : (dats m 0 c).before 6 t d = blockAt m c 6 t := before_in6 m (dats m 0 c) (A_eq m c 6) (after6 m c) t d
theorem before7 (c : Dev nD) (t : Fin cfg0.N) (d) : (dats m 0 c).before 7 t d = blockAt m c 7 t := before_in7 m (dats m 0 c) (A_eq m c 7) (after7 m c) t d

/-! ## The body obligation, at a generic tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any tile: the inputs' buffers hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (blockAt m c 0 t) (blockAt m c 1 t) (blockAt m c 2 t) (blockAt m c 3 t) (blockAt m c 4 t) (blockAt m c 5 t)
    (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every tile. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and every final state
    has every array of the region at what the proof data computes and every other unscoped buffer as the closing
    lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## What the final state says -/

/-- A buffer that bypasses the region and that no host line writes ends as launched. -/
theorem kept_bypassing (r : PUnit × MemSt nD τ sig (Elt F))
    (h : Pipeline.FramePost cfgs (dats m) 0 (Pipeline.afterTail₀ cfgs (dats m) 0 (V0 m) [hostOps1]) r) (c : Dev nD) (b : Ref sig .tc)
    (hs : b.isScoped = false) (harr : ∀ w, Pipeline.arrRef spec0 w ≠ b)
    (hb : b ≠ main_v0 ∧ b ≠ main_v1 ∧ b ≠ main_v2 ∧ b ≠ main_v3 ∧ b ≠ main_v4) (hb' : b ≠ main_v6 ∧ b ≠ main_v7) :
    r.2.mem ((c.tc : Thread nD τ).loc b) = m ((c.tc : Thread nD τ).loc b) :=
  ((h c).2 b (Pipeline.mem_restRefs_of b hs harr)).trans (W_of_unwritten m (dats m) c b hb hb' harr)

/-- Every weakly fair execution of the program terminates; the two results are the left and right halves of the
    region's output array as the region leaves it (`(dats m 0 c).arrAt 8 N`), and the twenty arguments are as launched:
    the three the region stages because a staged input's array is never written, the seventeen others because no
    host line writes them. -/
theorem run_post : θ_run defs (onTc (τ := τ) (main (F := F))) ⟨m, fun _ => 0, ρ⟩ (fun r => ∀ c : Dev nD,
      r.2.mem ((c.tc : Thread nD τ).loc main_v6)
        = extractStridedSlice S16384x64 ![0, 0] ((dats m 0 c).arrAt 8 cfg0.N) slices_S16384x128_S16384x64_0_0
      ∧ r.2.mem ((c.tc : Thread nD τ).loc main_v7)
        = extractStridedSlice S16384x64 ![0, 64] ((dats m 0 c).arrAt 8 cfg0.N) slices_S16384x128_S16384x64_0_64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨
    ((h c).2 main_v6 (Pipeline.mem_restRefs_of main_v6 (by decide) (by decide))).trans (W_left m (dats m) c),
    ((h c).2 main_v7 (Pipeline.mem_restRefs_of main_v7 (by decide) (by decide))).trans (W_right m (dats m) c),
    ((h c).1 1).trans (((dats m 0 c).arrAt_in 1 rfl _).trans ((A_eq m c 1).trans (V_of_unwritten m c main_arg0 (by decide)))),
    kept_bypassing m _ h c main_arg1 (by decide) (by decide) (by decide) (by decide),
    ((h c).1 2).trans (((dats m 0 c).arrAt_in 2 rfl _).trans ((A_eq m c 2).trans (V_of_unwritten m c main_arg2 (by decide)))),
    ((h c).1 0).trans (((dats m 0 c).arrAt_in 0 rfl _).trans ((A_eq m c 0).trans (V_of_unwritten m c main_arg3 (by decide)))),
    kept_bypassing m _ h c main_arg4 (by decide) (by decide) (by decide) (by decide),
    kept_bypassing m _ h c main_arg5 (by decide) (by decide) (by decide) (by decide),
    kept_bypassing m _ h c main_arg6 (by decide) (by decide) (by decide) (by decide),
    kept_bypassing m _ h c main_arg7 (by decide) (by decide) (by decide) (by decide),
    kept_bypassing m _ h c main_arg8 (by decide) (by decide) (by decide) (by decide),
    kept_bypassing m _ h c main_arg9 (by decide) (by decide) (by decide) (by decide),
    kept_bypassing m _ h c main_arg10 (by decide) (by decide) (by decide) (by decide),
    kept_bypassing m _ h c main_arg11 (by decide) (by decide) (by decide) (by decide),
    kept_bypassing m _ h c main_arg12 (by decide) (by decide) (by decide) (by decide),
    kept_bypassing m _ h c main_arg13 (by decide) (by decide) (by decide) (by decide),
    kept_bypassing m _ h c main_arg14 (by decide) (by decide) (by decide) (by decide),
    kept_bypassing m _ h c main_arg15 (by decide) (by decide) (by decide) (by decide),
    kept_bypassing m _ h c main_arg16 (by decide) (by decide) (by decide) (by decide),
    kept_bypassing m _ h c main_arg17 (by decide) (by decide) (by decide) (by decide),
    kept_bypassing m _ h c main_arg18 (by decide) (by decide) (by decide) (by decide),
    kept_bypassing m _ h c main_arg19 (by decide) (by decide) (by decide) (by decide)⟩) (run_main m ρ)

/-- The frame: the program terminates from any memory and its twenty arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2.2) (run_post m ρ)

end Cert.KernelIdeal.Hand

end
-- ==== Proof.Spec.lean ====
/-
  The mathematics both programs compute, as plain functions on extended reals.

  A graph-convolutional LSTM step over N = 16384 nodes with 64 features. With A the adjacency matrix,
  h the previous hidden state, x the input and c the previous cell state, the neighbourhood aggregate is
      g r k = Σ_n A[r, n] · h[n, k],
  each of the four gates (input i, forget f, output o, candidate u) has the pre-activation
      pre r j = (Σ_k x[r, k] · Wx[j, k] + bx[j]) + (Σ_k g r k · Wh[j, k] + bh[j]),
  and the new states are
      cell r j   = σ(pre_f) · c[r, j] + σ(pre_i) · tanh(pre_u),
      hidden r j = σ(pre_o) · tanh(cell r j),
  with σ the logistic function 1 / (1 + e^(-x)) extended to ±∞ by its limits.

  The same step restricted to ONE tile of 256 rows, with the four gates' weights stacked into 256-row
  matrices (gate q occupies rows 64 q … 64 q + 63), is stated beside it ('tile…'): this is the form in
  which a row tile is computed when the gate matrices are fused, the two results side by side in a
  128-column block (hidden in columns 0 … 63, cell in columns 64 … 127).
-/
import Idealize.ShloMosaic.PureOps.Ideal
import Idealize.ShloMosaic.Lib.ValueIdx

noncomputable section

namespace Cert.GraphLstm

open Idealize.ShloMosaic Idealize.ShloMosaic.ValueIdx

/-- A matrix of extended reals with literal extents. -/
abbrev Mat (r c : Nat) : Type := (⟨2, ![r, c]⟩ : Shape).Idx → EReal
/-- A vector of extended reals with a literal extent. -/
abbrev Vc (n : Nat) : Type := (⟨1, ![n]⟩ : Shape).Idx → EReal

/-- The neighbourhood aggregate: row `r` of `A · h`, at feature `k`. -/
def agg (A : Mat 16384 16384) (h : Mat 16384 64) (r : Fin 16384) (k : Fin 64) : EReal :=
  ∑ n : Fin 16384, A (ix2 r n) * h (ix2 n k)

/-- One gate's pre-activation at node `r`, unit `j`: the input's projection plus its bias, plus the aggregate's
    projection plus its bias — in this grouping. -/
def pre (x : Mat 16384 64) (g : Fin 16384 → Fin 64 → EReal) (Wx : Mat 64 64) (bx : Vc 64) (Wh : Mat 64 64) (bh : Vc 64)
    (r : Fin 16384) (j : Fin 64) : EReal :=
  ((∑ k : Fin 64, x (ix2 r k) * Wx (ix2 j k)) + bx (ix1 j)) + ((∑ k : Fin 64, g r k * Wh (ix2 j k)) + bh (ix1 j))

/-- The twenty argument arrays of the step. -/
structure Args where
  x : Mat 16384 64
  h : Mat 16384 64
  c : Mat 16384 64
  A : Mat 16384 16384
  Wxi : Mat 64 64
  bxi : Vc 64
  Whi : Mat 64 64
  bhi : Vc 64
  Wxf : Mat 64 64
  bxf : Vc 64
  Whf : Mat 64 64
  bhf : Vc 64
  Wxo : Mat 64 64
  bxo : Vc 64
  Who : Mat 64 64
  bho : Vc 64
  Wxu : Mat 64 64
  bxu : Vc 64
  Whu : Mat 64 64
  bhu : Vc 64

namespace Args
variable (P : Args)

def preI (r : Fin 16384) (j : Fin 64) : EReal := pre P.x (agg P.A P.h) P.Wxi P.bxi P.Whi P.bhi r j
def preF (r : Fin 16384) (j : Fin 64) : EReal := pre P.x (agg P.A P.h) P.Wxf P.bxf P.Whf P.bhf r j
def preO (r : Fin 16384) (j : Fin 64) : EReal := pre P.x (agg P.A P.h) P.Wxo P.bxo P.Who P.bho r j
def preU (r : Fin 16384) (j : Fin 64) : EReal := pre P.x (agg P.A P.h) P.Wxu P.bxu P.Whu P.bhu r j

/-- The new cell state. -/
def cell (r : Fin 16384) (j : Fin 64) : EReal :=
  Ideal.logistic (P.preF r j) * P.c (ix2 r j) + Ideal.logistic (P.preI r j) * Ideal.tanh (P.preU r j)

/-- The new hidden state. -/
def hidden (r : Fin 16384) (j : Fin 64) : EReal :=
  Ideal.logistic (P.preO r j) * Ideal.tanh (P.cell r j)

/-- The two results as arrays. -/
def cellArr : Mat 16384 64 := fun i => P.cell ⟨(i 0).val, (i 0).isLt⟩ ⟨(i 1).val, (i 1).isLt⟩
def hiddenArr : Mat 16384 64 := fun i => P.hidden ⟨(i 0).val, (i 0).isLt⟩ ⟨(i 1).val, (i 1).isLt⟩

end Args

/-! ## One tile of 256 rows, the gates' weights stacked -/

/-- A stacked pre-activation: row `p` of the tile, stacked unit `q` (gate `q / 64`, unit `q % 64`). -/
def tilePre (xb gb : Mat 256 64) (Wx : Mat 256 64) (bx : Vc 256) (Wh : Mat 256 64) (bh : Vc 256)
    (p : Fin 256) (q : Fin 256) : EReal :=
  ((∑ k : Fin 64, xb (ix2 p k) * Wx (ix2 q k)) + bx (ix1 q)) + ((∑ k : Fin 64, gb (ix2 p k) * Wh (ix2 q k)) + bh (ix1 q))

/-- The tile's cell state: gates in the order input, forget, output, candidate. -/
def tileCell (xb gb cb : Mat 256 64) (Wx : Mat 256 64) (bx : Vc 256) (Wh : Mat 256 64) (bh : Vc 256)
    (p : Fin 256) (j : Fin 64) : EReal :=
  Ideal.logistic (tilePre xb gb Wx bx Wh bh p ⟨j.val + 64, by omega⟩) * cb (ix2 p j)
    + Ideal.logistic (tilePre xb gb Wx bx Wh bh p ⟨j.val, by omega⟩) * Ideal.tanh (tilePre xb gb Wx bx Wh bh p ⟨j.val + 192, by omega⟩)

/-- The tile's hidden state. -/
def tileHidden (xb gb cb : Mat 256 64) (Wx : Mat 256 64) (bx : Vc 256) (Wh : Mat 256 64) (bh : Vc 256)
    (p : Fin 256) (j : Fin 64) : EReal :=
  Ideal.logistic (tilePre xb gb Wx bx Wh bh p ⟨j.val + 128, by omega⟩) * Ideal.tanh (tileCell xb gb cb Wx bx Wh bh p j)

/-- The tile's 128-column result block: hidden state in columns 0 … 63, cell state in columns 64 … 127. -/
def tileOut (xb gb cb : Mat 256 64) (Wx : Mat 256 64) (bx : Vc 256) (Wh : Mat 256 64) (bh : Vc 256) : Mat 256 128 :=
  fun i => if h : (i 1).val < 64 then tileHidden xb gb cb Wx bx Wh bh ⟨(i 0).val, (i 0).isLt⟩ ⟨(i 1).val, h⟩
    else tileCell xb gb cb Wx bx Wh bh ⟨(i 0).val, (i 0).isLt⟩ ⟨(i 1).val - 64, by have := (i 1).isLt; change (i 1).val < 128 at this; omega⟩

/-- One 2048-wide slab of the aggregate added to a running sum: `acc + a · b` for a 256 × 2048 slab `a` of `A`
    and the matching 2048 × 64 slab `b` of `h`. -/
def slabAdd (acc : Mat 256 64) (a : Mat 256 2048) (b : Mat 2048 64) : Mat 256 64 :=
  fun i => acc i + ∑ n : Fin 2048, a (ix2 ⟨(i 0).val, (i 0).isLt⟩ n) * b (ix2 n ⟨(i 1).val, (i 1).isLt⟩)

end Cert.GraphLstm

end
-- ==== Proof.TilePayload.lean ====
/-
  The two pure values the kernel body computes are the specification's tile forms.

  The body of one row tile does two things. Eight times over it adds to a running 256 × 64 sum the product of a
  256 × 2048 slab of the adjacency matrix with the matching 2048 × 64 slab of the hidden state; read at `(p, j)` one such
  step is `acc[p, j] + Σ_n a[p, n] · b[n, j]` (`pay2_eq`). Then it forms the 256 × 256 array of stacked pre-activations
      P[p, q] = (Σ_k x[p, k] · Wx[q, k] + bx[q]) + (Σ_k g[p, k] · Wh[q, k] + bh[q]),
  two products that contract both operands' second axis, each with its bias vector laid out as one row and repeated down
  the rows; cuts P into the four gates' 64-column bands (input, forget, output, candidate, in that order); and gates:
      cell[p, j]   = σ(P[p, j + 64]) · c[p, j] + σ(P[p, j]) · tanh(P[p, j + 192]),
      hidden[p, j] = σ(P[p, j + 128]) · tanh(cell[p, j]),
  laying hidden and cell side by side in a 128-column block (`pay3_eq`). On extended reals the changes of number format
  are the identity, so every step is read at an index as the operation on the elements; the only work is the index
  arithmetic of the products, the bias rows, the bands and the side-by-side block.
-/
import proofs.«140344_j68436008895010_2_alg».proof.Proof.Gen.KernelIdeal.Skeleton
import proofs.«140344_j68436008895010_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TilePayload

open Cert.KernelIdeal Cert.KernelIdeal.Gen Idealize.ShloMosaic Idealize.ShloMosaic.ValueIdx Cert.GraphLstm

/-! ## The two matrix products read at an index

A product into a zero accumulator is, at an output index, the sum over the one contracted coordinate of the operands'
products; the lemmas below say at which operand indices, for the two contraction patterns of the tile. -/

/-- Gate product (both operands contract their second axis): the left operand's index has the output's row. -/
theorem gate_lhs_0 (i : S256x256.Idx) (c : dot_S256x64_S256x64_S256x256_1_1_0_0_n_n.contr.Idx) :
    (dot_S256x64_S256x64_S256x256_1_1_0_0_n_n.lhsIdx i c 0).val = (i 0).val := by
  unfold DotDims.lhsIdx
  rw [dif_neg (show ¬(0 : Fin S256x64.rank) ∈ dot_S256x64_S256x64_S256x256_1_1_0_0_n_n.lhsBatch by decide),
    dif_pos (show (0 : Fin S256x64.rank) ∈ dot_S256x64_S256x64_S256x256_1_1_0_0_n_n.lhsNonContracting by decide)]
  rfl
/-- … and the contracted coordinate on its second axis. -/
theorem gate_lhs_1 (i : S256x256.Idx) (c : dot_S256x64_S256x64_S256x256_1_1_0_0_n_n.contr.Idx) :
    (dot_S256x64_S256x64_S256x256_1_1_0_0_n_n.lhsIdx i c 1).val = (c ⟨0, by decide⟩).val :=
  dot_S256x64_S256x64_S256x256_1_1_0_0_n_n.lhsIdx_val_of_single rfl i c
/-- The right operand's index has the output's COLUMN as its row (the weights are stored one row per stacked unit) … -/
theorem gate_rhs_0 (i : S256x256.Idx) (c : dot_S256x64_S256x64_S256x256_1_1_0_0_n_n.contr.Idx) :
    (dot_S256x64_S256x64_S256x256_1_1_0_0_n_n.rhsIdx i c 0).val = (i 1).val := by
  unfold DotDims.rhsIdx
  rw [dif_neg (show ¬(0 : Fin S256x64.rank) ∈ dot_S256x64_S256x64_S256x256_1_1_0_0_n_n.rhsBatch by decide),
    dif_pos (show (0 : Fin S256x64.rank) ∈ dot_S256x64_S256x64_S256x256_1_1_0_0_n_n.rhsNonContracting by decide)]
  rfl
/-- … and the contracted coordinate on its second axis. -/
theorem gate_rhs_1 (i : S256x256.Idx) (c : dot_S256x64_S256x64_S256x256_1_1_0_0_n_n.contr.Idx) :
    (dot_S256x64_S256x64_S256x256_1_1_0_0_n_n.rhsIdx i c 1).val = (c ⟨0, by decide⟩).val :=
  dot_S256x64_S256x64_S256x256_1_1_0_0_n_n.rhsIdx_val_of_single rfl i c

/-- The gate product at `(p, q)`: `Σ_k a[p, k] · w[q, k]`. -/
theorem gate_matmul_apply (a w : FVec Ideal S256x64 .bf16) (p q : Fin 256) :
    matmul dot_S256x64_S256x64_S256x256_1_1_0_0_n_n none a w (constant S256x256 .f32 0x00000000#32) (ix2 p q)
      = ∑ k : Fin 64, a (ix2 p k) * w (ix2 q k) := by
  simp only [matmul]
  rw [Ideal.matmul_constant_zero_apply,
    ← Equiv.sum_comp (contrEquiv1 dot_S256x64_S256x64_S256x256_1_1_0_0_n_n 64 rfl rfl).symm]
  refine Finset.sum_congr rfl fun k _ => ?_
  have hk := contrEquiv1_symm_val dot_S256x64_S256x64_S256x256_1_1_0_0_n_n 64 rfl rfl k
  have el : dot_S256x64_S256x64_S256x256_1_1_0_0_n_n.lhsIdx (ix2 p q)
      ((contrEquiv1 dot_S256x64_S256x64_S256x256_1_1_0_0_n_n 64 rfl rfl).symm k) = ix2 p k :=
    funext fun ax => Fin.ext (by
      match ax with
      | ⟨0, _⟩ => exact gate_lhs_0 _ _
      | ⟨1, _⟩ => exact (gate_lhs_1 _ _).trans hk)
  have er : dot_S256x64_S256x64_S256x256_1_1_0_0_n_n.rhsIdx (ix2 p q)
      ((contrEquiv1 dot_S256x64_S256x64_S256x256_1_1_0_0_n_n 64 rfl rfl).symm k) = ix2 q k :=
    funext fun ax => Fin.ext (by
      match ax with
      | ⟨0, _⟩ => exact gate_rhs_0 _ _
      | ⟨1, _⟩ => exact (gate_rhs_1 _ _).trans hk)
  rw [el, er]

/-- Slab product (rows times columns): the left operand's index has the output's row … -/
theorem slab_lhs_0 (i : S256x64.Idx) (c : dot_S256x2048_S2048x64_S256x64_1_0_0_1_n_n.contr.Idx) :
    (dot_S256x2048_S2048x64_S256x64_1_0_0_1_n_n.lhsIdx i c 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
/-- … and the contracted coordinate on its second axis. -/
theorem slab_lhs_1 (i : S256x64.Idx) (c : dot_S256x2048_S2048x64_S256x64_1_0_0_1_n_n.contr.Idx) :
    (dot_S256x2048_S2048x64_S256x64_1_0_0_1_n_n.lhsIdx i c 1).val = (c ⟨0, by decide⟩).val :=
  dot_S256x2048_S2048x64_S256x64_1_0_0_1_n_n.lhsIdx_val_of_single rfl i c
/-- The right operand's index has the contracted coordinate on its first axis … -/
theorem slab_rhs_0 (i : S256x64.Idx) (c : dot_S256x2048_S2048x64_S256x64_1_0_0_1_n_n.contr.Idx) :
    (dot_S256x2048_S2048x64_S256x64_1_0_0_1_n_n.rhsIdx i c 0).val = (c ⟨0, by decide⟩).val :=
  dot_S256x2048_S2048x64_S256x64_1_0_0_1_n_n.rhsIdx_val_of_single rfl i c
/-- … and the output's column. -/
theorem slab_rhs_1 (i : S256x64.Idx) (c : dot_S256x2048_S2048x64_S256x64_1_0_0_1_n_n.contr.Idx) :
    (dot_S256x2048_S2048x64_S256x64_1_0_0_1_n_n.rhsIdx i c 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- The slab product at `(p, j)`: `Σ_n a[p, n] · b[n, j]`. -/
theorem slab_matmul_apply (a : FVec Ideal S256x2048 .bf16) (b : FVec Ideal S2048x64 .bf16) (p : Fin 256) (j : Fin 64) :
    matmul dot_S256x2048_S2048x64_S256x64_1_0_0_1_n_n none a b (constant S256x64 .f32 0x00000000#32) (ix2 p j)
      = ∑ n : Fin 2048, a (ix2 p n) * b (ix2 n j) := by
  simp only [matmul]
  rw [Ideal.matmul_constant_zero_apply,
    ← Equiv.sum_comp (contrEquiv1 dot_S256x2048_S2048x64_S256x64_1_0_0_1_n_n 2048 rfl rfl).symm]
  refine Finset.sum_congr rfl fun n _ => ?_
  have hn := contrEquiv1_symm_val dot_S256x2048_S2048x64_S256x64_1_0_0_1_n_n 2048 rfl rfl n
  have el : dot_S256x2048_S2048x64_S256x64_1_0_0_1_n_n.lhsIdx (ix2 p j)
      ((contrEquiv1 dot_S256x2048_S2048x64_S256x64_1_0_0_1_n_n 2048 rfl rfl).symm n) = ix2 p n :=
    funext fun ax => Fin.ext (by
      match ax with
      | ⟨0, _⟩ => exact slab_lhs_0 _ _
      | ⟨1, _⟩ => exact (slab_lhs_1 _ _).trans hn)
  have er : dot_S256x2048_S2048x64_S256x64_1_0_0_1_n_n.rhsIdx (ix2 p j)
      ((contrEquiv1 dot_S256x2048_S2048x64_S256x64_1_0_0_1_n_n 2048 rfl rfl).symm n) = ix2 n j :=
    funext fun ax => Fin.ext (by
      match ax with
      | ⟨0, _⟩ => exact (slab_rhs_0 _ _).trans hn
      | ⟨1, _⟩ => exact slab_rhs_1 _ _)
  rw [el, er]

/-! ## The bias rows -/

/-- A bias vector laid out as one row and repeated down the 256 rows reads, at `(p, q)`, the vector at `q`. -/
theorem bias_rows_apply (b : FVec Ideal S256 .f32) (p q : Fin 256) :
    broadcastTo S256x256 (shapeCast S1x256 (shapeCast S256 b shapeCasts_S256_S256) shapeCasts_S256_S1x256)
      broadcasts_S1x256_S256x256 (ix2 p q) = b (ix1 q) :=
  (broadcastTo_1b_ab_apply _ broadcasts_S1x256_S256x256 p q).trans
    ((shapeCast_a_1a_apply _ shapeCasts_S256_S1x256 (0 : Fin 1) q).trans
      (congrFun (shapeCast_self b shapeCasts_S256_S256) (ix1 q)))

/-! ## The stacked pre-activations -/

/-- The 256 × 256 array of stacked pre-activations as the tile computes it: the input's product with the stacked input
    weights plus their bias rows, plus the aggregate's product with the stacked recurrent weights plus their bias rows. -/
def stackedPre (xb gb Wx : FVec Ideal S256x64 .f32) (bx : FVec Ideal S256 .f32) (Wh : FVec Ideal S256x64 .f32)
    (bh : FVec Ideal S256 .f32) : FVec Ideal S256x256 .f32 :=
  addf
    (addf
      (matmul dot_S256x64_S256x64_S256x256_1_1_0_0_n_n none (truncf .bf16 xb bitsLt_bf16_f32)
        (truncf .bf16 (shapeCast S256x64 Wx shapeCasts_S256x64_S256x64) bitsLt_bf16_f32)
        (constant (F := Ideal) S256x256 .f32 0x00000000#32))
      (broadcastTo S256x256 (shapeCast S1x256 (shapeCast S256 bx shapeCasts_S256_S256) shapeCasts_S256_S1x256)
        broadcasts_S1x256_S256x256))
    (addf
      (matmul dot_S256x64_S256x64_S256x256_1_1_0_0_n_n none (truncf .bf16 gb bitsLt_bf16_f32)
        (truncf .bf16 (shapeCast S256x64 Wh shapeCasts_S256x64_S256x64) bitsLt_bf16_f32)
        (constant (F := Ideal) S256x256 .f32 0x00000000#32))
      (broadcastTo S256x256 (shapeCast S1x256 (shapeCast S256 bh shapeCasts_S256_S256) shapeCasts_S256_S1x256)
        broadcasts_S1x256_S256x256))

/-- At `(p, q)` it is the specification's stacked pre-activation of row `p`, stacked unit `q`. -/
theorem stackedPre_apply (xb gb Wx : FVec Ideal S256x64 .f32) (bx : FVec Ideal S256 .f32) (Wh : FVec Ideal S256x64 .f32)
    (bh : FVec Ideal S256 .f32) (p q : Fin 256) :
    stackedPre xb gb Wx bx Wh bh (ix2 p q) = tilePre xb gb Wx bx Wh bh p q := by
  unfold stackedPre tilePre
  simp only [addf_apply]
  rw [gate_matmul_apply, gate_matmul_apply, bias_rows_apply, bias_rows_apply]
  simp only [truncf_apply, shapeCast_self]

/-! ## The four gate slices -/

/-- Columns `o … o + 63` of a 256 × 256 array, read at `(p, j)`: the array at `(p, j + o)`. -/
theorem gate_slice_apply (o : Nat) (X : FVec Ideal S256x256 .f32) (h : S256x256.Slices ![0, o] S256x64)
    (p : Fin 256) (j : Fin 64) (ho : j.val + o < 256) :
    extractStridedSlice S256x64 ![0, o] X h (ix2 p j) = X (ix2 p (⟨j.val + o, ho⟩ : Fin 256)) :=
  slice2_axis1_apply o X h p j ⟨j.val + o, ho⟩ (Nat.add_comm _ _)

/-! ## The cell and hidden states of the tile -/

/-- The tile's new cell state as an array: forget gate times the old cell state plus input gate times the candidate. -/
def cellTile (P : FVec Ideal S256x256 .f32) (cb : FVec Ideal S256x64 .f32) : FVec Ideal S256x64 .f32 :=
  addf
    (mulf (logistic (extractStridedSlice S256x64 ![0, 64] P slices_S256x256_o0_64_S256x64)) cb)
    (mulf (logistic (extractStridedSlice S256x64 ![0, 0] P slices_S256x256_o0_0_S256x64))
      (tanh (extractStridedSlice S256x64 ![0, 192] P slices_S256x256_o0_192_S256x64)))

/-- The tile's new hidden state as an array: output gate times the hyperbolic tangent of the new cell state. -/
def hiddenTile (P : FVec Ideal S256x256 .f32) (cb : FVec Ideal S256x64 .f32) : FVec Ideal S256x64 .f32 :=
  mulf (logistic (extractStridedSlice S256x64 ![0, 128] P slices_S256x256_o0_128_S256x64)) (tanh (cellTile P cb))

/-- The cell array at `(p, j)`, over any array `P` of stacked pre-activations. -/
theorem cellTile_at (P : FVec Ideal S256x256 .f32) (cb : FVec Ideal S256x64 .f32) (p : Fin 256) (j : Fin 64) :
    cellTile P cb (ix2 p j)
      = Ideal.logistic (P (ix2 p (⟨j.val + 64, by omega⟩ : Fin 256))) * cb (ix2 p j)
        + Ideal.logistic (P (ix2 p (⟨j.val + 0, by omega⟩ : Fin 256)))
          * Ideal.tanh (P (ix2 p (⟨j.val + 192, by omega⟩ : Fin 256))) := by
  unfold cellTile
  show Ideal.logistic (extractStridedSlice S256x64 ![0, 64] P slices_S256x256_o0_64_S256x64 (ix2 p j)) * cb (ix2 p j)
      + Ideal.logistic (extractStridedSlice S256x64 ![0, 0] P slices_S256x256_o0_0_S256x64 (ix2 p j))
        * Ideal.tanh (extractStridedSlice S256x64 ![0, 192] P slices_S256x256_o0_192_S256x64 (ix2 p j)) = _
  rw [gate_slice_apply 64 P _ p j (by omega), gate_slice_apply 0 P _ p j (by omega),
    gate_slice_apply 192 P _ p j (by omega)]

/-- The hidden array at `(p, j)`, over any array `P` of stacked pre-activations. -/
theorem hiddenTile_at (P : FVec Ideal S256x256 .f32) (cb : FVec Ideal S256x64 .f32) (p : Fin 256) (j : Fin 64) :
    hiddenTile P cb (ix2 p j)
      = Ideal.logistic (P (ix2 p (⟨j.val + 128, by omega⟩ : Fin 256))) * Ideal.tanh (cellTile P cb (ix2 p j)) := by
  unfold hiddenTile
  show Ideal.logistic (extractStridedSlice S256x64 ![0, 128] P slices_S256x256_o0_128_S256x64 (ix2 p j))
      * Ideal.tanh (cellTile P cb (ix2 p j)) = _
  rw [gate_slice_apply 128 P _ p j (by omega)]

/-- The cell array at `(p, j)` over the stacked pre-activations is the specification's cell state. -/
theorem cellTile_apply (xb gb cb Wx : FVec Ideal S256x64 .f32) (bx : FVec Ideal S256 .f32) (Wh : FVec Ideal S256x64 .f32)
    (bh : FVec Ideal S256 .f32) (p : Fin 256) (j : Fin 64) :
    cellTile (stackedPre xb gb Wx bx Wh bh) cb (ix2 p j) = tileCell xb gb cb Wx bx Wh bh p j := by
  rw [cellTile_at, stackedPre_apply, stackedPre_apply, stackedPre_apply]
  rfl

/-- The hidden array at `(p, j)` over the stacked pre-activations is the specification's hidden state. -/
theorem hiddenTile_apply (xb gb cb Wx : FVec Ideal S256x64 .f32) (bx : FVec Ideal S256 .f32) (Wh : FVec Ideal S256x64 .f32)
    (bh : FVec Ideal S256 .f32) (p : Fin 256) (j : Fin 64) :
    hiddenTile (stackedPre xb gb Wx bx Wh bh) cb (ix2 p j) = tileHidden xb gb cb Wx bx Wh bh p j := by
  rw [hiddenTile_at, stackedPre_apply, cellTile_apply]
  rfl

/-! ## Two 64-column arrays side by side -/

/-- A column below 64 of the 128-column block reads the first array at that column. -/
theorem sideBySide_left (X Y : FVec Ideal S256x64 .f32) (p : Fin 256) (q : Fin 128) (h : q.val < 64) :
    concatenate S256x128 1 [⟨S256x64, X⟩, ⟨S256x64, Y⟩] concatenates_S256x64_S256x64_S256x128_d1 (ix2 p q)
      = X (ix2 p (⟨q.val, h⟩ : Fin 64)) := by
  refine concatenate_apply_piece (1 : Fin S256x128.rank) [⟨S256x64, X⟩, ⟨S256x64, Y⟩]
    concatenates_S256x64_S256x64_S256x128_d1 (ix2 p q) 0 Nat.zero_lt_two S256x64 X rfl rfl 0 rfl
    (ix2 p (⟨q.val, h⟩ : Fin 64)) (fun b hb => ?_) (Nat.zero_add _)
  match b with
  | ⟨0, _⟩ => rfl
  | ⟨1, _⟩ => exact absurd rfl hb

/-- A column from 64 on reads the second array at the column less 64. -/
theorem sideBySide_right (X Y : FVec Ideal S256x64 .f32) (p : Fin 256) (q : Fin 128) (h : ¬q.val < 64)
    (hq : q.val - 64 < 64) :
    concatenate S256x128 1 [⟨S256x64, X⟩, ⟨S256x64, Y⟩] concatenates_S256x64_S256x64_S256x128_d1 (ix2 p q)
      = Y (ix2 p (⟨q.val - 64, hq⟩ : Fin 64)) := by
  refine concatenate_apply_piece (1 : Fin S256x128.rank) [⟨S256x64, X⟩, ⟨S256x64, Y⟩]
    concatenates_S256x64_S256x64_S256x128_d1 (ix2 p q) 1 Nat.one_lt_two S256x64 Y rfl rfl 64 rfl
    (ix2 p (⟨q.val - 64, hq⟩ : Fin 64)) (fun b hb => ?_) (by show 64 + (q.val - 64) = q.val; omega)
  match b with
  | ⟨0, _⟩ => rfl
  | ⟨1, _⟩ => exact absurd rfl hb

/-! ## The kernel body's two values -/

/-- The tile's result block is the specification's: hidden state in columns 0 … 63, cell state in columns 64 … 127. -/
theorem pay3_eq (v2 : FVec Ideal S256x64 .f32) (v3 v4 v5 : Vec Ideal S256x64 .f32) (v10 : Vec Ideal S256 .f32)
    (v15 : Vec Ideal S256x64 .f32) (v20 : Vec Ideal S256 .f32) :
    Gen.k0_pay3 (F := Ideal) v2 v3 v4 v5 v10 v15 v20 = Cert.GraphLstm.tileOut v3 v2 v4 v5 v10 v15 v20 := by
  have e : Gen.k0_pay3 (F := Ideal) v2 v3 v4 v5 v10 v15 v20
      = concatenate S256x128 1
          [⟨S256x64, hiddenTile (stackedPre v3 v2 v5 v10 v15 v20) v4⟩, ⟨S256x64, cellTile (stackedPre v3 v2 v5 v10 v15 v20) v4⟩]
          concatenates_S256x64_S256x64_S256x128_d1 := rfl
  rw [e]
  funext i
  obtain ⟨p, q, rfl⟩ : ∃ (p : Fin 256) (q : Fin 128), i = ix2 p q := ⟨i 0, i 1, eq_ix2 i⟩
  by_cases h : q.val < 64
  · refine (sideBySide_left _ _ p q h).trans ((hiddenTile_apply v3 v2 v4 v5 v10 v15 v20 p ⟨q.val, h⟩).trans ?_)
    unfold tileOut
    rw [dif_pos (show ((ix2 p q : S256x128.Idx) 1).val < 64 from h)]
  · have hq : q.val - 64 < 64 := by have := q.isLt; omega
    refine (sideBySide_right _ _ p q h hq).trans ((cellTile_apply v3 v2 v4 v5 v10 v15 v20 p ⟨q.val - 64, hq⟩).trans ?_)
    unfold tileOut
    rw [dif_neg (show ¬((ix2 p q : S256x128.Idx) 1).val < 64 from h)]

/-- One trip of the aggregate's loop adds the slab's product to the running sum. -/
theorem pay2_eq (acc : FVec Ideal S256x64 .f32) (a : Vec Ideal S256x2048 .f32) (b : Vec Ideal S2048x64 .bf16) :
    Gen.k0_pay2 (F := Ideal) acc a b = Cert.GraphLstm.slabAdd acc a b := by
  funext i
  obtain ⟨p, j, rfl⟩ : ∃ (p : Fin 256) (j : Fin 64), i = ix2 p j := ⟨i 0, i 1, eq_ix2 i⟩
  unfold Gen.k0_pay2 slabAdd
  show acc (ix2 p j) + matmul dot_S256x2048_S2048x64_S256x64_1_0_0_1_n_n none (truncf .bf16 a bitsLt_bf16_f32)
      (shapeCast S2048x64 b shapeCasts_S2048x64_S2048x64) (constant (F := Ideal) S256x64 .f32 0x00000000#32) (ix2 p j) = _
  rw [slab_matmul_apply]
  simp only [truncf_apply, shapeCast_self]

end Cert.KernelIdeal.TilePayload
end
-- ==== Proof.Tiles.lean ====
/-
  Cutting the whole arrays into the pieces one row tile sees.

  Row tile t (of 64) owns rows 256 t … 256 t + 255. It sees the tile's rows of the input, of the previous cell
  state and of the adjacency matrix, the whole previous hidden state, and the four gates' weights and biases
  STACKED: gate q (0 input, 1 forget, 2 output, 3 candidate) in rows 64 q … 64 q + 63 of a 256-row array. The
  adjacency rows are consumed in eight column slabs of 2048, each multiplied with the matching 2048 rows of the
  hidden state and added to a running sum that starts from zero ('slabSum').

  'wide P' is the step's two results side by side: hidden state in columns 0 … 63, cell state in columns 64 … 127.
  The statements to prove about these definitions are: the eight slabs add up to the full sum over the 16384
  columns, and a tile's 'tileOut' over these pieces is the tile's rows of 'wide P'.
-/
import proofs.«140344_j68436008895010_2_alg».proof.Proof.Spec

noncomputable section

namespace Cert.GraphLstm

open Idealize.ShloMosaic Idealize.ShloMosaic.ValueIdx

/-- Four 64-row matrices stacked into 256 rows, in the order given. -/
def stackM (W0 W1 W2 W3 : Mat 64 64) : Mat 256 64 := fun i =>
  if h0 : (i 0).val < 64 then W0 (ix2 ⟨(i 0).val, h0⟩ ⟨(i 1).val, (i 1).isLt⟩)
  else if h1 : (i 0).val < 128 then W1 (ix2 ⟨(i 0).val - 64, by omega⟩ ⟨(i 1).val, (i 1).isLt⟩)
  else if h2 : (i 0).val < 192 then W2 (ix2 ⟨(i 0).val - 128, by omega⟩ ⟨(i 1).val, (i 1).isLt⟩)
  else W3 (ix2 ⟨(i 0).val - 192, by have := (i 0).isLt; change (i 0).val < 256 at this; omega⟩ ⟨(i 1).val, (i 1).isLt⟩)

/-- Four 64-vectors stacked into 256 entries, in the order given. -/
def stackV (b0 b1 b2 b3 : Vc 64) : Vc 256 := fun i =>
  if h0 : (i 0).val < 64 then b0 (ix1 ⟨(i 0).val, h0⟩)
  else if h1 : (i 0).val < 128 then b1 (ix1 ⟨(i 0).val - 64, by omega⟩)
  else if h2 : (i 0).val < 192 then b2 (ix1 ⟨(i 0).val - 128, by omega⟩)
  else b3 (ix1 ⟨(i 0).val - 192, by have := (i 0).isLt; change (i 0).val < 256 at this; omega⟩)

/-- Rows 256 t … 256 t + 255 of an array with 16384 rows and `n` columns. -/
def rowTile {n : Nat} (X : Mat 16384 n) (t : Fin 64) : Mat 256 n := fun i =>
  X (ix2 ⟨256 * t.val + (i 0).val, by have := (i 0).isLt; change (i 0).val < 256 at this; have := t.isLt; omega⟩ ⟨(i 1).val, (i 1).isLt⟩)

/-- Columns 2048 k … 2048 k + 2047 of a 256 × 16384 block. -/
def colSlab (Ab : Mat 256 16384) (k : Fin 8) : Mat 256 2048 := fun i =>
  Ab (ix2 ⟨(i 0).val, (i 0).isLt⟩ ⟨2048 * k.val + (i 1).val, by have := (i 1).isLt; change (i 1).val < 2048 at this; have := k.isLt; omega⟩)

/-- Rows 2048 k … 2048 k + 2047 of the 16384 × 64 hidden state. -/
def rowSlab (h : Mat 16384 64) (k : Fin 8) : Mat 2048 64 := fun i =>
  h (ix2 ⟨2048 * k.val + (i 0).val, by have := (i 0).isLt; change (i 0).val < 2048 at this; have := k.isLt; omega⟩ ⟨(i 1).val, (i 1).isLt⟩)

/-- The running sum before slab `k`: zero, then one slab product added per step. -/
def slabSum (Ab : Mat 256 16384) (h : Mat 16384 64) : ℕ → Mat 256 64
  | 0 => fun _ => 0
  | k + 1 => if hk : k < 8 then slabAdd (slabSum Ab h k) (colSlab Ab ⟨k, hk⟩) (rowSlab h ⟨k, hk⟩) else slabSum Ab h k

/-- The step's two results side by side: hidden state in columns 0 … 63, cell state in columns 64 … 127. -/
def wide (P : Args) : Mat 16384 128 := fun i =>
  if h : (i 1).val < 64 then P.hidden ⟨(i 0).val, (i 0).isLt⟩ ⟨(i 1).val, h⟩
  else P.cell ⟨(i 0).val, (i 0).isLt⟩ ⟨(i 1).val - 64, by have := (i 1).isLt; change (i 1).val < 128 at this; omega⟩

/-- The stacked arrays of a step's arguments. -/
def Args.WxAll (P : Args) : Mat 256 64 := stackM P.Wxi P.Wxf P.Wxo P.Wxu
def Args.bxAll (P : Args) : Vc 256 := stackV P.bxi P.bxf P.bxo P.bxu
def Args.WhAll (P : Args) : Mat 256 64 := stackM P.Whi P.Whf P.Who P.Whu
def Args.bhAll (P : Args) : Vc 256 := stackV P.bhi P.bhf P.bho P.bhu

end Cert.GraphLstm

end
-- ==== Proof.TileAlgebra.lean ====
/-
  The algebra that joins one row tile to the whole step, over extended reals.

  Two facts. First, the running sum over eight column slabs of 2048 is the full sum over the 16384 columns: extended
  reals under addition are a commutative monoid, so a finite sum splits into consecutive ranges with no condition on
  the terms (`slabSum_eight`). Second, a tile's result block, computed from the tile's rows of the input, of the
  previous cell state and of the adjacency matrix, the whole previous hidden state and the four gates' weights and
  biases stacked, is the tile's rows of the step's two results side by side (`tile_eq`): stacked unit `j + 64 g` of the
  stack reads unit `j` of gate `g`'s own weights and bias, row `p` of tile `t` is node `256 t + p`, the eight slabs give
  that node's neighbourhood aggregate, so each stacked pre-activation is its gate's pre-activation at that node, and the
  cell and hidden states follow term by term.
-/
import proofs.«140344_j68436008895010_2_alg».proof.Proof.Tiles
import Mathlib.Algebra.BigOperators.Fin

noncomputable section

namespace Cert.GraphLstm

open Idealize.ShloMosaic Idealize.ShloMosaic.ValueIdx
open scoped BigOperators

/-! ## Eight slabs of 2048 columns add up to the sum over all 16384 columns

Extended reals under addition are a commutative monoid, so a finite sum may be cut into consecutive ranges with no
finiteness condition on the terms. The summand is extended by zero beyond 16384 so that the ranges can be written over
the natural numbers. -/

/-- The summand `Ab[p, n] · h[n, j]` as a function of a natural number `n`, zero from 16384 on. -/
def slabTerm (Ab : Mat 256 16384) (h : Mat 16384 64) (p : Fin 256) (j : Fin 64) (n : ℕ) : EReal :=
  if hn : n < 16384 then Ab (ix2 p ⟨n, hn⟩) * h (ix2 ⟨n, hn⟩ j) else 0

/-- After `k ≤ 8` slabs the running sum is the sum of the first `2048 k` terms. -/
theorem slabSum_range (Ab : Mat 256 16384) (h : Mat 16384 64) (p : Fin 256) (j : Fin 64) :
    ∀ k : ℕ, k ≤ 8 → slabSum Ab h k (ix2 p j) = ∑ n ∈ Finset.range (2048 * k), slabTerm Ab h p j n
  | 0, _ => by
    show (0 : EReal) = _
    rw [Nat.mul_zero, Finset.range_zero, Finset.sum_empty]
  | k + 1, hk => by
    have hk' : k < 8 := by omega
    have step : slabSum Ab h (k + 1) (ix2 p j)
        = slabSum Ab h k (ix2 p j)
          + ∑ n : Fin 2048, colSlab Ab ⟨k, hk'⟩ (ix2 p n) * rowSlab h ⟨k, hk'⟩ (ix2 n j) := by
      rw [slabSum, dif_pos hk']
      rfl
    rw [step, slabSum_range Ab h p j k (by omega), Nat.mul_succ, Finset.sum_range_add,
      ← Fin.sum_univ_eq_sum_range (fun x => slabTerm Ab h p j (2048 * k + x)) 2048]
    refine congrArg (_ + ·) (Finset.sum_congr rfl fun n _ => ?_)
    have hn : 2048 * k + n.val < 16384 := by have := n.isLt; omega
    show _ = slabTerm Ab h p j (2048 * k + n.val)
    unfold slabTerm
    rw [dif_pos hn]
    rfl

/-- The eight slabs together: the full product row `p` of the block with column `j` of the hidden state. -/
theorem slabSum_eight (Ab : Mat 256 16384) (h : Mat 16384 64) (p : Fin 256) (j : Fin 64) :
    slabSum Ab h 8 (ix2 p j) = ∑ n : Fin 16384, Ab (ix2 p n) * h (ix2 n j) := by
  rw [slabSum_range Ab h p j 8 (Nat.le_refl 8), show (2048 * 8 : ℕ) = 16384 from rfl,
    ← Fin.sum_univ_eq_sum_range (slabTerm Ab h p j) 16384]
  refine Finset.sum_congr rfl fun n _ => ?_
  unfold slabTerm
  rw [dif_pos n.isLt]

/-! ## The stacked weights and biases, one gate's band at a time -/

/-- The stacked matrix at `(a, k)`, the row given as one coordinate. -/
theorem stackM_ix (W0 W1 W2 W3 : Mat 64 64) (a : Fin 256) (k : Fin 64) :
    stackM W0 W1 W2 W3 (ix2 a k)
      = if h0 : a.val < 64 then W0 (ix2 ⟨a.val, h0⟩ k)
        else if h1 : a.val < 128 then W1 (ix2 ⟨a.val - 64, by omega⟩ k)
        else if h2 : a.val < 192 then W2 (ix2 ⟨a.val - 128, by omega⟩ k)
        else W3 (ix2 ⟨a.val - 192, by omega⟩ k) := rfl

/-- The stacked vector at `a`. -/
theorem stackV_ix (b0 b1 b2 b3 : Vc 64) (a : Fin 256) :
    stackV b0 b1 b2 b3 (ix1 a)
      = if h0 : a.val < 64 then b0 (ix1 ⟨a.val, h0⟩)
        else if h1 : a.val < 128 then b1 (ix1 ⟨a.val - 64, by omega⟩)
        else if h2 : a.val < 192 then b2 (ix1 ⟨a.val - 128, by omega⟩)
        else b3 (ix1 ⟨a.val - 192, by omega⟩) := rfl

/-- Row `j` of the stack is row `j` of the first matrix … -/
theorem stackM_band0 (W0 W1 W2 W3 : Mat 64 64) (a : Fin 256) (j k : Fin 64) (ha : a.val = j.val) :
    stackM W0 W1 W2 W3 (ix2 a k) = W0 (ix2 j k) := by
  rw [stackM_ix, dif_pos (by omega)]
  exact congrArg (fun x => W0 (ix2 x k)) (Fin.ext ha)
/-- … row `j + 64` is row `j` of the second … -/
theorem stackM_band1 (W0 W1 W2 W3 : Mat 64 64) (a : Fin 256) (j k : Fin 64) (ha : a.val = j.val + 64) :
    stackM W0 W1 W2 W3 (ix2 a k) = W1 (ix2 j k) := by
  rw [stackM_ix, dif_neg (by omega), dif_pos (by omega)]
  exact congrArg (fun x => W1 (ix2 x k)) (Fin.ext (by show a.val - 64 = j.val; omega))
/-- … row `j + 128` is row `j` of the third … -/
theorem stackM_band2 (W0 W1 W2 W3 : Mat 64 64) (a : Fin 256) (j k : Fin 64) (ha : a.val = j.val + 128) :
    stackM W0 W1 W2 W3 (ix2 a k) = W2 (ix2 j k) := by
  rw [stackM_ix, dif_neg (by omega), dif_neg (by omega), dif_pos (by omega)]
  exact congrArg (fun x => W2 (ix2 x k)) (Fin.ext (by show a.val - 128 = j.val; omega))
/-- … and row `j + 192` is row `j` of the fourth. -/
theorem stackM_band3 (W0 W1 W2 W3 : Mat 64 64) (a : Fin 256) (j k : Fin 64) (ha : a.val = j.val + 192) :
    stackM W0 W1 W2 W3 (ix2 a k) = W3 (ix2 j k) := by
  rw [stackM_ix, dif_neg (by omega), dif_neg (by omega), dif_neg (by omega)]
  exact congrArg (fun x => W3 (ix2 x k)) (Fin.ext (by show a.val - 192 = j.val; omega))

/-- Entry `j` of the stacked vector is entry `j` of the first vector … -/
theorem stackV_band0 (b0 b1 b2 b3 : Vc 64) (a : Fin 256) (j : Fin 64) (ha : a.val = j.val) :
    stackV b0 b1 b2 b3 (ix1 a) = b0 (ix1 j) := by
  rw [stackV_ix, dif_pos (by omega)]
  exact congrArg (fun x => b0 (ix1 x)) (Fin.ext ha)
/-- … entry `j + 64` is entry `j` of the second … -/
theorem stackV_band1 (b0 b1 b2 b3 : Vc 64) (a : Fin 256) (j : Fin 64) (ha : a.val = j.val + 64) :
    stackV b0 b1 b2 b3 (ix1 a) = b1 (ix1 j) := by
  rw [stackV_ix, dif_neg (by omega), dif_pos (by omega)]
  exact congrArg (fun x => b1 (ix1 x)) (Fin.ext (by show a.val - 64 = j.val; omega))
/-- … entry `j + 128` is entry `j` of the third … -/
theorem stackV_band2 (b0 b1 b2 b3 : Vc 64) (a : Fin 256) (j : Fin 64) (ha : a.val = j.val + 128) :
    stackV b0 b1 b2 b3 (ix1 a) = b2 (ix1 j) := by
  rw [stackV_ix, dif_neg (by omega), dif_neg (by omega), dif_pos (by omega)]
  exact congrArg (fun x => b2 (ix1 x)) (Fin.ext (by show a.val - 128 = j.val; omega))
/-- … and entry `j + 192` is entry `j` of the fourth. -/
theorem stackV_band3 (b0 b1 b2 b3 : Vc 64) (a : Fin 256) (j : Fin 64) (ha : a.val = j.val + 192) :
    stackV b0 b1 b2 b3 (ix1 a) = b3 (ix1 j) := by
  rw [stackV_ix, dif_neg (by omega), dif_neg (by omega), dif_neg (by omega)]
  exact congrArg (fun x => b3 (ix1 x)) (Fin.ext (by show a.val - 192 = j.val; omega))

/-! ## A tile's rows -/

/-- Row `p` of tile `t` is node `256 t + p`. -/
abbrev node (t : Fin 64) (p : Fin 256) : Fin 16384 :=
  ⟨256 * t.val + p.val, by have := t.isLt; have := p.isLt; omega⟩

/-- A tile's rows of an array, read at `(p, k)`. -/
theorem rowTile_apply {n : Nat} (X : Mat 16384 n) (t : Fin 64) (p : Fin 256) (k : Fin n) :
    rowTile X t (ix2 p k) = X (ix2 (node t p) k) := rfl

/-- The eight slabs over a tile's rows of the adjacency matrix give the neighbourhood aggregate at the tile's nodes. -/
theorem slabSum_agg (A : Mat 16384 16384) (h : Mat 16384 64) (t : Fin 64) (p : Fin 256) (k : Fin 64) :
    slabSum (rowTile A t) h 8 (ix2 p k) = agg A h (node t p) k :=
  slabSum_eight (rowTile A t) h p k

/-! ## A stacked pre-activation is its gate's pre-activation -/

/-- If the tile's pieces read, at row `p` and stacked unit `q`, what the whole arrays read at node `r` and unit `j` of
    one gate, the stacked pre-activation is that gate's pre-activation. -/
theorem tilePre_eq_pre (xb gb Wx : Mat 256 64) (bx : Vc 256) (Wh : Mat 256 64) (bh : Vc 256)
    (x : Mat 16384 64) (g : Fin 16384 → Fin 64 → EReal) (wx : Mat 64 64) (b_x : Vc 64) (wh : Mat 64 64) (b_h : Vc 64)
    (p q : Fin 256) (r : Fin 16384) (j : Fin 64)
    (hx : ∀ k, xb (ix2 p k) = x (ix2 r k)) (hg : ∀ k, gb (ix2 p k) = g r k)
    (hWx : ∀ k, Wx (ix2 q k) = wx (ix2 j k)) (hbx : bx (ix1 q) = b_x (ix1 j))
    (hWh : ∀ k, Wh (ix2 q k) = wh (ix2 j k)) (hbh : bh (ix1 q) = b_h (ix1 j)) :
    tilePre xb gb Wx bx Wh bh p q = pre x g wx b_x wh b_h r j := by
  have e1 : ∑ k : Fin 64, xb (ix2 p k) * Wx (ix2 q k) = ∑ k : Fin 64, x (ix2 r k) * wx (ix2 j k) :=
    Finset.sum_congr rfl fun k _ => by rw [hx k, hWx k]
  have e2 : ∑ k : Fin 64, gb (ix2 p k) * Wh (ix2 q k) = ∑ k : Fin 64, g r k * wh (ix2 j k) :=
    Finset.sum_congr rfl fun k _ => by rw [hg k, hWh k]
  unfold tilePre pre
  rw [e1, e2, hbx, hbh]

section Gates
variable (P : Args) (t : Fin 64) (p : Fin 256) (j : Fin 64)

/-- Input gate: stacked unit `j`. -/
theorem tilePre_input (q : Fin 256) (hq : q.val = j.val) :
    tilePre (rowTile P.x t) (slabSum (rowTile P.A t) P.h 8) P.WxAll P.bxAll P.WhAll P.bhAll p q
      = P.preI (node t p) j :=
  tilePre_eq_pre _ _ _ _ _ _ P.x (agg P.A P.h) P.Wxi P.bxi P.Whi P.bhi p q (node t p) j
    (fun k => rowTile_apply P.x t p k) (fun k => slabSum_agg P.A P.h t p k)
    (fun k => stackM_band0 _ _ _ _ q j k hq) (stackV_band0 _ _ _ _ q j hq)
    (fun k => stackM_band0 _ _ _ _ q j k hq) (stackV_band0 _ _ _ _ q j hq)

/-- Forget gate: stacked unit `j + 64`. -/
theorem tilePre_forget (q : Fin 256) (hq : q.val = j.val + 64) :
    tilePre (rowTile P.x t) (slabSum (rowTile P.A t) P.h 8) P.WxAll P.bxAll P.WhAll P.bhAll p q
      = P.preF (node t p) j :=
  tilePre_eq_pre _ _ _ _ _ _ P.x (agg P.A P.h) P.Wxf P.bxf P.Whf P.bhf p q (node t p) j
    (fun k => rowTile_apply P.x t p k) (fun k => slabSum_agg P.A P.h t p k)
    (fun k => stackM_band1 _ _ _ _ q j k hq) (stackV_band1 _ _ _ _ q j hq)
    (fun k => stackM_band1 _ _ _ _ q j k hq) (stackV_band1 _ _ _ _ q j hq)

/-- Output gate: stacked unit `j + 128`. -/
theorem tilePre_output (q : Fin 256) (hq : q.val = j.val + 128) :
    tilePre (rowTile P.x t) (slabSum (rowTile P.A t) P.h 8) P.WxAll P.bxAll P.WhAll P.bhAll p q
      = P.preO (node t p) j :=
  tilePre_eq_pre _ _ _ _ _ _ P.x (agg P.A P.h) P.Wxo P.bxo P.Who P.bho p q (node t p) j
    (fun k => rowTile_apply P.x t p k) (fun k => slabSum_agg P.A P.h t p k)
    (fun k => stackM_band2 _ _ _ _ q j k hq) (stackV_band2 _ _ _ _ q j hq)
    (fun k => stackM_band2 _ _ _ _ q j k hq) (stackV_band2 _ _ _ _ q j hq)

/-- Candidate: stacked unit `j + 192`. -/
theorem tilePre_candidate (q : Fin 256) (hq : q.val = j.val + 192) :
    tilePre (rowTile P.x t) (slabSum (rowTile P.A t) P.h 8) P.WxAll P.bxAll P.WhAll P.bhAll p q
      = P.preU (node t p) j :=
  tilePre_eq_pre _ _ _ _ _ _ P.x (agg P.A P.h) P.Wxu P.bxu P.Whu P.bhu p q (node t p) j
    (fun k => rowTile_apply P.x t p k) (fun k => slabSum_agg P.A P.h t p k)
    (fun k => stackM_band3 _ _ _ _ q j k hq) (stackV_band3 _ _ _ _ q j hq)
    (fun k => stackM_band3 _ _ _ _ q j k hq) (stackV_band3 _ _ _ _ q j hq)

/-- The tile's cell state is the step's cell state at the tile's nodes. -/
theorem tileCell_eq :
    tileCell (rowTile P.x t) (slabSum (rowTile P.A t) P.h 8) (rowTile P.c t) P.WxAll P.bxAll P.WhAll P.bhAll p j
      = P.cell (node t p) j := by
  unfold tileCell Args.cell
  rw [tilePre_forget P t p j _ rfl, tilePre_input P t p j _ rfl, tilePre_candidate P t p j _ rfl, rowTile_apply]

/-- The tile's hidden state is the step's hidden state at the tile's nodes. -/
theorem tileHidden_eq :
    tileHidden (rowTile P.x t) (slabSum (rowTile P.A t) P.h 8) (rowTile P.c t) P.WxAll P.bxAll P.WhAll P.bhAll p j
      = P.hidden (node t p) j := by
  unfold tileHidden Args.hidden
  rw [tilePre_output P t p j _ rfl, tileCell_eq]

end Gates

/-! ## A tile's result block is the tile's rows of the step's two results side by side -/

/-- Tile `t`'s block at `(p, q)` is the step's hidden state (column `q` below 64) or cell state (column `q - 64`) at node
    `256 t + p`. -/
theorem tile_eq (P : Args) (t : Fin 64) :
    tileOut (rowTile P.x t) (slabSum (rowTile P.A t) P.h 8) (rowTile P.c t) P.WxAll P.bxAll P.WhAll P.bhAll
      = rowTile (wide P) t := by
  funext i
  obtain ⟨p, q, rfl⟩ : ∃ (p : Fin 256) (q : Fin 128), i = ix2 p q := ⟨i 0, i 1, eq_ix2 i⟩
  by_cases h : q.val < 64
  · have hR : rowTile (wide P) t (ix2 p q) = P.hidden (node t p) ⟨q.val, h⟩ := dif_pos h
    rw [hR, ← tileHidden_eq P t p ⟨q.val, h⟩]
    exact dif_pos h
  · have hq : q.val - 64 < 64 := by have := q.isLt; omega
    have hR : rowTile (wide P) t (ix2 p q) = P.cell (node t p) ⟨q.val - 64, hq⟩ := dif_neg h
    rw [hR, ← tileCell_eq P t p ⟨q.val - 64, hq⟩]
    exact dif_neg h

end Cert.GraphLstm
end
-- ==== Proof.KIStack.lean ====
/-
  Four gates' arrays laid one after another along the first axis are the stacked arrays.

  Four 64 × 64 matrices laid one under another form a 256 × 64 matrix whose row `a` lies in piece `g = a / 64` and reads
  that piece at row `a - 64 g`; four 64-vectors laid end to end form a 256-vector in the same way. These are the stacked
  weight matrix and the stacked bias vector of a row tile, gate by gate (input, forget, output, candidate).
-/
import proofs.«140344_j68436008895010_2_alg».proof.Proof.Gen.KernelIdeal
import proofs.«140344_j68436008895010_2_alg».proof.Proof.Tiles
import Idealize.ShloMosaic.Lib.Pipeline.Value
import Idealize.ShloMosaic.Lib.ValueIdx

noncomputable section

namespace Cert.KernelIdeal.HandValue

open Cert.KernelIdeal Cert.KernelIdeal.Gen Cert.GraphLstm Idealize.ShloMosaic Idealize.ShloMosaic.ValueIdx

/-! ## Four 64-row matrices laid one under another -/

/-- Row `a` of the 256-row array, when it falls in piece `g` (rows `64 g … 64 g + 63`), reads that piece at row
    `a - 64 g`: the four cases, one per piece. -/
theorem rows_piece0 (W0 W1 W2 W3 : S64x64.Idx → EReal) (a : Fin 256) (k : Fin 64) (b : Fin 64) (hb : 0 + b.val = a.val) :
    concatenate S256x64 0 [⟨S64x64, W0⟩, ⟨S64x64, W1⟩, ⟨S64x64, W2⟩, ⟨S64x64, W3⟩]
      concatenates_S64x64_S64x64_S64x64_S64x64_S256x64_d0 (ix2 a k) = W0 (ix2 b k) := by
  refine concatenate_apply_piece (0 : Fin S256x64.rank) [⟨S64x64, W0⟩, ⟨S64x64, W1⟩, ⟨S64x64, W2⟩, ⟨S64x64, W3⟩]
    concatenates_S64x64_S64x64_S64x64_S64x64_S256x64_d0 (ix2 a k) 0 (by show 0 < 4; omega) S64x64 W0 rfl rfl 0 rfl
    (ix2 b k) (fun c hc => ?_) hb
  match c with
  | ⟨0, _⟩ => exact absurd rfl hc
  | ⟨1, _⟩ => rfl
theorem rows_piece1 (W0 W1 W2 W3 : S64x64.Idx → EReal) (a : Fin 256) (k : Fin 64) (b : Fin 64) (hb : 64 + b.val = a.val) :
    concatenate S256x64 0 [⟨S64x64, W0⟩, ⟨S64x64, W1⟩, ⟨S64x64, W2⟩, ⟨S64x64, W3⟩]
      concatenates_S64x64_S64x64_S64x64_S64x64_S256x64_d0 (ix2 a k) = W1 (ix2 b k) := by
  refine concatenate_apply_piece (0 : Fin S256x64.rank) [⟨S64x64, W0⟩, ⟨S64x64, W1⟩, ⟨S64x64, W2⟩, ⟨S64x64, W3⟩]
    concatenates_S64x64_S64x64_S64x64_S64x64_S256x64_d0 (ix2 a k) 1 (by show 1 < 4; omega) S64x64 W1 rfl rfl 64 rfl
    (ix2 b k) (fun c hc => ?_) hb
  match c with
  | ⟨0, _⟩ => exact absurd rfl hc
  | ⟨1, _⟩ => rfl
theorem rows_piece2 (W0 W1 W2 W3 : S64x64.Idx → EReal) (a : Fin 256) (k : Fin 64) (b : Fin 64) (hb : 128 + b.val = a.val) :
    concatenate S256x64 0 [⟨S64x64, W0⟩, ⟨S64x64, W1⟩, ⟨S64x64, W2⟩, ⟨S64x64, W3⟩]
      concatenates_S64x64_S64x64_S64x64_S64x64_S256x64_d0 (ix2 a k) = W2 (ix2 b k) := by
  refine concatenate_apply_piece (0 : Fin S256x64.rank) [⟨S64x64, W0⟩, ⟨S64x64, W1⟩, ⟨S64x64, W2⟩, ⟨S64x64, W3⟩]
    concatenates_S64x64_S64x64_S64x64_S64x64_S256x64_d0 (ix2 a k) 2 (by show 2 < 4; omega) S64x64 W2 rfl rfl 128 rfl
    (ix2 b k) (fun c hc => ?_) hb
  match c with
  | ⟨0, _⟩ => exact absurd rfl hc
  | ⟨1, _⟩ => rfl
theorem rows_piece3 (W0 W1 W2 W3 : S64x64.Idx → EReal) (a : Fin 256) (k : Fin 64) (b : Fin 64) (hb : 192 + b.val = a.val) :
    concatenate S256x64 0 [⟨S64x64, W0⟩, ⟨S64x64, W1⟩, ⟨S64x64, W2⟩, ⟨S64x64, W3⟩]
      concatenates_S64x64_S64x64_S64x64_S64x64_S256x64_d0 (ix2 a k) = W3 (ix2 b k) := by
  refine concatenate_apply_piece (0 : Fin S256x64.rank) [⟨S64x64, W0⟩, ⟨S64x64, W1⟩, ⟨S64x64, W2⟩, ⟨S64x64, W3⟩]
    concatenates_S64x64_S64x64_S64x64_S64x64_S256x64_d0 (ix2 a k) 3 (by show 3 < 4; omega) S64x64 W3 rfl rfl 192 rfl
    (ix2 b k) (fun c hc => ?_) hb
  match c with
  | ⟨0, _⟩ => exact absurd rfl hc
  | ⟨1, _⟩ => rfl

/-- The four matrices laid one under another are the stacked matrix. -/
theorem stack_rows (W0 W1 W2 W3 : S64x64.Idx → EReal) :
    concatenate S256x64 0 [⟨S64x64, W0⟩, ⟨S64x64, W1⟩, ⟨S64x64, W2⟩, ⟨S64x64, W3⟩]
      concatenates_S64x64_S64x64_S64x64_S64x64_S256x64_d0 = stackM W0 W1 W2 W3 := by
  funext i
  obtain ⟨a, k, rfl⟩ : ∃ (a : Fin 256) (k : Fin 64), i = ix2 a k := ⟨i 0, i 1, eq_ix2 i⟩
  have hs : stackM W0 W1 W2 W3 (ix2 a k)
      = if h0 : a.val < 64 then W0 (ix2 ⟨a.val, h0⟩ k)
        else if h1 : a.val < 128 then W1 (ix2 ⟨a.val - 64, by omega⟩ k)
        else if h2 : a.val < 192 then W2 (ix2 ⟨a.val - 128, by omega⟩ k)
        else W3 (ix2 ⟨a.val - 192, by omega⟩ k) := rfl
  rw [hs]
  by_cases h0 : a.val < 64
  · rw [dif_pos h0]
    exact rows_piece0 W0 W1 W2 W3 a k ⟨a.val, h0⟩ (Nat.zero_add _)
  · rw [dif_neg h0]
    by_cases h1 : a.val < 128
    · rw [dif_pos h1]
      exact rows_piece1 W0 W1 W2 W3 a k ⟨a.val - 64, by omega⟩ (by show 64 + (a.val - 64) = a.val; omega)
    · rw [dif_neg h1]
      by_cases h2 : a.val < 192
      · rw [dif_pos h2]
        exact rows_piece2 W0 W1 W2 W3 a k ⟨a.val - 128, by omega⟩ (by show 128 + (a.val - 128) = a.val; omega)
      · rw [dif_neg h2]
        exact rows_piece3 W0 W1 W2 W3 a k ⟨a.val - 192, by omega⟩ (by show 192 + (a.val - 192) = a.val; omega)

/-! ## Four 64-vectors laid end to end -/

/-- Entry `a` of the 256-vector, when it falls in piece `g` (entries `64 g … 64 g + 63`), reads that piece at
    `a - 64 g`: the four cases, one per piece. -/
theorem entries_piece0 (b0 b1 b2 b3 : S64.Idx → EReal) (a : Fin 256) (b : Fin 64) (hb : 0 + b.val = a.val) :
    concatenate S256 0 [⟨S64, b0⟩, ⟨S64, b1⟩, ⟨S64, b2⟩, ⟨S64, b3⟩] concatenates_S64_S64_S64_S64_S256_d0 (ix1 a)
      = b0 (ix1 b) := by
  refine concatenate_apply_piece (0 : Fin S256.rank) [⟨S64, b0⟩, ⟨S64, b1⟩, ⟨S64, b2⟩, ⟨S64, b3⟩]
    concatenates_S64_S64_S64_S64_S256_d0 (ix1 a) 0 (by show 0 < 4; omega) S64 b0 rfl rfl 0 rfl (ix1 b) (fun c hc => ?_) hb
  match c with
  | ⟨0, _⟩ => exact absurd rfl hc
theorem entries_piece1 (b0 b1 b2 b3 : S64.Idx → EReal) (a : Fin 256) (b : Fin 64) (hb : 64 + b.val = a.val) :
    concatenate S256 0 [⟨S64, b0⟩, ⟨S64, b1⟩, ⟨S64, b2⟩, ⟨S64, b3⟩] concatenates_S64_S64_S64_S64_S256_d0 (ix1 a)
      = b1 (ix1 b) := by
  refine concatenate_apply_piece (0 : Fin S256.rank) [⟨S64, b0⟩, ⟨S64, b1⟩, ⟨S64, b2⟩, ⟨S64, b3⟩]
    concatenates_S64_S64_S64_S64_S256_d0 (ix1 a) 1 (by show 1 < 4; omega) S64 b1 rfl rfl 64 rfl (ix1 b) (fun c hc => ?_) hb
  match c with
  | ⟨0, _⟩ => exact absurd rfl hc
theorem entries_piece2 (b0 b1 b2 b3 : S64.Idx → EReal) (a : Fin 256) (b : Fin 64) (hb : 128 + b.val = a.val) :
    concatenate S256 0 [⟨S64, b0⟩, ⟨S64, b1⟩, ⟨S64, b2⟩, ⟨S64, b3⟩] concatenates_S64_S64_S64_S64_S256_d0 (ix1 a)
      = b2 (ix1 b) := by
  refine concatenate_apply_piece (0 : Fin S256.rank) [⟨S64, b0⟩, ⟨S64, b1⟩, ⟨S64, b2⟩, ⟨S64, b3⟩]
    concatenates_S64_S64_S64_S64_S256_d0 (ix1 a) 2 (by show 2 < 4; omega) S64 b2 rfl rfl 128 rfl (ix1 b) (fun c hc => ?_) hb
  match c with
  | ⟨0, _⟩ => exact absurd rfl hc
theorem entries_piece3 (b0 b1 b2 b3 : S64.Idx → EReal) (a : Fin 256) (b : Fin 64) (hb : 192 + b.val = a.val) :
    concatenate S256 0 [⟨S64, b0⟩, ⟨S64, b1⟩, ⟨S64, b2⟩, ⟨S64, b3⟩] concatenates_S64_S64_S64_S64_S256_d0 (ix1 a)
      = b3 (ix1 b) := by
  refine concatenate_apply_piece (0 : Fin S256.rank) [⟨S64, b0⟩, ⟨S64, b1⟩, ⟨S64, b2⟩, ⟨S64, b3⟩]
    concatenates_S64_S64_S64_S64_S256_d0 (ix1 a) 3 (by show 3 < 4; omega) S64 b3 rfl rfl 192 rfl (ix1 b) (fun c hc => ?_) hb
  match c with
  | ⟨0, _⟩ => exact absurd rfl hc

/-- The four vectors laid end to end are the stacked vector. -/
theorem stack_entries (b0 b1 b2 b3 : S64.Idx → EReal) :
    concatenate S256 0 [⟨S64, b0⟩, ⟨S64, b1⟩, ⟨S64, b2⟩, ⟨S64, b3⟩] concatenates_S64_S64_S64_S64_S256_d0
      = stackV b0 b1 b2 b3 := by
  funext i
  obtain ⟨a, rfl⟩ : ∃ a : Fin 256, i = ix1 a := ⟨i 0, eq_ix1 i⟩
  have hs : stackV b0 b1 b2 b3 (ix1 a)
      = if h0 : a.val < 64 then b0 (ix1 ⟨a.val, h0⟩)
        else if h1 : a.val < 128 then b1 (ix1 ⟨a.val - 64, by omega⟩)
        else if h2 : a.val < 192 then b2 (ix1 ⟨a.val - 128, by omega⟩)
        else b3 (ix1 ⟨a.val - 192, by omega⟩) := rfl
  rw [hs]
  by_cases h0 : a.val < 64
  · rw [dif_pos h0]
    exact entries_piece0 b0 b1 b2 b3 a ⟨a.val, h0⟩ (Nat.zero_add _)
  · rw [dif_neg h0]
    by_cases h1 : a.val < 128
    · rw [dif_pos h1]
      exact entries_piece1 b0 b1 b2 b3 a ⟨a.val - 64, by omega⟩ (by show 64 + (a.val - 64) = a.val; omega)
    · rw [dif_neg h1]
      by_cases h2 : a.val < 192
      · rw [dif_pos h2]
        exact entries_piece2 b0 b1 b2 b3 a ⟨a.val - 128, by omega⟩ (by show 128 + (a.val - 128) = a.val; omega)
      · rw [dif_neg h2]
        exact entries_piece3 b0 b1 b2 b3 a ⟨a.val - 192, by omega⟩ (by show 192 + (a.val - 192) = a.val; omega)

end Cert.KernelIdeal.HandValue
end
-- ==== Proof.KISlabs.lean ====
/-
  The eight slab loads of a row tile, and the running sum they feed, in the specification's words.

  A row tile holds a 256 × 16384 block of the adjacency matrix and the whole 16384 × 64 previous hidden state.
  Its loop runs eight times. Trip k reads columns 2048 k … 2048 k + 2047 of the block and rows
  2048 k … 2048 k + 2047 of the hidden state, through unit-stride rectangles whose offsets are (0, 2048 k) and
  (2048 k, 0); at an index (p, n) of the first rectangle the block is read at (p, 2048 k + n), at an index (n, j)
  of the second the hidden state is read at (2048 k + n, j). These are the specification's column slab and row
  slab. Each trip adds the two slabs' product to the value carried from the trip before, starting from the zero
  array, so by induction on the trips the carried value is the specification's running sum, and after the eighth
  trip it is the running sum over all eight slabs.

  Last, the two 64-column halves of the 128-column array of both results: columns 0 … 63 hold the hidden state
  and columns 64 … 127 the cell state, so cutting the array at column 0 and at column 64 gives the two back.
-/
import proofs.«140344_j68436008895010_2_alg».proof.Proof.KILoopValue
import proofs.«140344_j68436008895010_2_alg».proof.Proof.TilePayload
import proofs.«140344_j68436008895010_2_alg».proof.Proof.Tiles
import proofs.«140344_j68436008895010_2_alg».proof.Proof.Gen.KernelIdeal
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.GraphLstm Idealize.ShloMosaic Idealize.ShloMosaic.ValueIdx

/-! ## The loop runs eight times, from zero -/

/-- The loop from 0 to 0 + 8 by steps of 1 has eight trips. -/
theorem trips_eq : Cert.KernelIdeal.k0_t1_loop.trips = 8 := by decide +kernel

/-- A trip's number is below eight. -/
theorem trip_lt (k : Fin k0_t1_loop.trips) : k.val < 8 := Nat.lt_of_lt_of_eq k.isLt trips_eq

/-- The value the loop starts from is the zero array. -/
theorem zero_start : Gen.k0_pay1 (F := Ideal) = fun _ => 0 := by
  funext i
  exact Ideal.ofBits_zero_f32

/-! ## The two slabs a trip reads -/

/-- Trip `k`'s load of the adjacency block reads its columns 2048 k … 2048 k + 2047. -/
theorem slab_cols (x0 : Vec Ideal S256x16384 .f32) (k : Fin k0_t1_loop.trips) :
    View.ld x0 (Hand.slabA k) = Cert.GraphLstm.colSlab x0 ⟨k.val, trip_lt k⟩ := by
  funext y
  unfold colSlab
  refine congrArg x0 (funext fun a => Fin.ext ?_)
  have ho := Gen.k0_off1_eq k
  match a with
  | ⟨0, _⟩ =>
    show k0_off1 k 0 + 1 * (y 0).val = (y 0).val
    rw [ho]; simp
  | ⟨1, _⟩ =>
    show k0_off1 k 1 + 1 * (y 1).val = 2048 * k.val + (y 1).val
    rw [ho]; simp

/-- Trip `k`'s load of the hidden state reads its rows 2048 k … 2048 k + 2047. -/
theorem slab_rows (x3 : Vec Ideal S16384x64 .bf16) (k : Fin k0_t1_loop.trips) :
    View.ld x3 (Hand.slabH k) = Cert.GraphLstm.rowSlab x3 ⟨k.val, trip_lt k⟩ := by
  funext y
  unfold rowSlab
  refine congrArg x3 (funext fun a => Fin.ext ?_)
  have ho := Gen.k0_off2_eq k
  match a with
  | ⟨0, _⟩ =>
    show k0_off2 k 0 + 1 * (y 0).val = 2048 * k.val + (y 0).val
    rw [ho]; simp
  | ⟨1, _⟩ =>
    show k0_off2 k 1 + 1 * (y 1).val = (y 1).val
    rw [ho]; simp

/-! ## The carried value is the running sum -/

/-- Before trip `k` the loop carries the specification's running sum over the first `k` slabs. -/
theorem accAt_eq_slabSum (x0 : Vec Ideal S256x16384 .f32) (x3 : Vec Ideal S16384x64 .bf16) (k : ℕ) :
    Hand.accAt (F := Ideal) x0 x3 k = Cert.GraphLstm.slabSum x0 x3 k := by
  induction k with
  | zero =>
    rw [Hand.accAt.eq_1, slabSum.eq_1]
    exact zero_start
  | succ k ih =>
    rw [Hand.accAt.eq_2, slabSum.eq_2]
    by_cases hk : k < k0_t1_loop.trips
    · have hk8 : k < 8 := Nat.lt_of_lt_of_eq hk trips_eq
      rw [dif_pos hk, dif_pos hk8, ih, TilePayload.pay2_eq, slab_cols, slab_rows]
    · have hk8 : ¬k < 8 := fun h => hk (Nat.lt_of_lt_of_eq h trips_eq.symm)
      rw [dif_neg hk, dif_neg hk8, ih]

/-- After its last trip the loop carries the running sum over all eight slabs. -/
theorem accAt_final (x0 : Vec Ideal S256x16384 .f32) (x3 : Vec Ideal S16384x64 .bf16) :
    Hand.accAt (F := Ideal) x0 x3 k0_t1_loop.trips = Cert.GraphLstm.slabSum x0 x3 8 := by
  rw [accAt_eq_slabSum, trips_eq]

/-! ## The two halves of the side-by-side results -/

/-- Columns 0 … 63 of the two results side by side are the hidden state. -/
theorem wide_left (P : Cert.GraphLstm.Args) :
    extractStridedSlice S16384x64 ![0, 0] (Cert.GraphLstm.wide P) slices_S16384x128_S16384x64_0_0 = P.hiddenArr := by
  funext i
  obtain ⟨r, j, rfl⟩ : ∃ (r : Fin 16384) (j : Fin 64), i = ix2 r j := ⟨i 0, i 1, eq_ix2 i⟩
  have hj : j.val < 128 := by have := j.isLt; omega
  refine (slice2_axis1_apply 0 (wide P) slices_S16384x128_S16384x64_0_0 r j ⟨j.val, hj⟩ (Nat.zero_add _).symm).trans ?_
  unfold wide
  rw [dif_pos (show ((ix2 r (⟨j.val, hj⟩ : Fin 128) : (⟨2, ![16384, 128]⟩ : Shape).Idx) 1).val < 64 from j.isLt)]
  rfl

/-- Columns 64 … 127 of the two results side by side are the cell state. -/
theorem wide_right (P : Cert.GraphLstm.Args) :
    extractStridedSlice S16384x64 ![0, 64] (Cert.GraphLstm.wide P) slices_S16384x128_S16384x64_0_64 = P.cellArr := by
  funext i
  obtain ⟨r, j, rfl⟩ : ∃ (r : Fin 16384) (j : Fin 64), i = ix2 r j := ⟨i 0, i 1, eq_ix2 i⟩
  have hj : 64 + j.val < 128 := by have := j.isLt; omega
  refine (slice2_axis1_apply 64 (wide P) slices_S16384x128_S16384x64_0_64 r j ⟨64 + j.val, hj⟩ rfl).trans ?_
  unfold wide
  rw [dif_neg (show ¬((ix2 r (⟨64 + j.val, hj⟩ : Fin 128) : (⟨2, ![16384, 128]⟩ : Shape).Idx) 1).val < 64 from
    Nat.not_lt.mpr (Nat.le_add_right _ _))]
  show P.cell _ _ = P.cell _ _
  congr 1
  exact Fin.ext (Nat.add_sub_cancel_left 64 j.val)

end Cert.KernelIdeal.HandValue

end
-- ==== Proof.KIValue.lean ====
/-
  The region's output array is the step's two results side by side.

  At the ideal instance a change of number format is the identity, so the array the host prepares from the
  previous hidden state IS the hidden state, and the four arrays it prepares by concatenation are the gates'
  weights and biases stacked. Tile t's blocks are then the tile's rows of the input, of the previous cell state
  and of the adjacency matrix; the hidden state and the stacked arrays are seen whole at every tile. What the
  body leaves at tile t is therefore the tile form of the step over these pieces, which is the tile's rows of the
  two results side by side; the 64 tiles' blocks cover the output array, so the array ends as the two results side
  by side, and its left and right halves are the hidden state and the cell state.
-/
import proofs.«140344_j68436008895010_2_alg».proof.Proof.KIFrame
import proofs.«140344_j68436008895010_2_alg».proof.Proof.TilePayload
import proofs.«140344_j68436008895010_2_alg».proof.Proof.Tiles
import proofs.«140344_j68436008895010_2_alg».proof.Proof.TileAlgebra
import proofs.«140344_j68436008895010_2_alg».proof.Proof.KIStack
import proofs.«140344_j68436008895010_2_alg».proof.Proof.KISlabs
import Idealize.ShloMosaic.Lib.Pipeline.Value
import Idealize.ShloMosaic.Lib.StableHlo.Run

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.GraphLstm

variable (m : (ℓ : Loc nD τ sig) → Buf (Elt Ideal) ℓ)

/-- The step's arguments as the program is launched with them on core `c`. -/
def argsAt (c : Dev nD) : Args where
  x := m ((c.tc : Thread nD τ).loc main_arg0)
  h := m ((c.tc : Thread nD τ).loc main_arg1)
  c := m ((c.tc : Thread nD τ).loc main_arg2)
  A := m ((c.tc : Thread nD τ).loc main_arg3)
  Wxi := m ((c.tc : Thread nD τ).loc main_arg4)
  bxi := m ((c.tc : Thread nD τ).loc main_arg5)
  Whi := m ((c.tc : Thread nD τ).loc main_arg6)
  bhi := m ((c.tc : Thread nD τ).loc main_arg7)
  Wxf := m ((c.tc : Thread nD τ).loc main_arg8)
  bxf := m ((c.tc : Thread nD τ).loc main_arg9)
  Whf := m ((c.tc : Thread nD τ).loc main_arg10)
  bhf := m ((c.tc : Thread nD τ).loc main_arg11)
  Wxo := m ((c.tc : Thread nD τ).loc main_arg12)
  bxo := m ((c.tc : Thread nD τ).loc main_arg13)
  Who := m ((c.tc : Thread nD τ).loc main_arg14)
  bho := m ((c.tc : Thread nD τ).loc main_arg15)
  Wxu := m ((c.tc : Thread nD τ).loc main_arg16)
  bxu := m ((c.tc : Thread nD τ).loc main_arg17)
  Whu := m ((c.tc : Thread nD τ).loc main_arg18)
  bhu := m ((c.tc : Thread nD τ).loc main_arg19)

theorem zeros2 : (![0, 0] : Fin 2 → Nat) = fun _ => 0 := funext fun a => by fin_cases a <;> rfl
theorem zeros1 : (![0] : Fin 1 → Nat) = fun _ => 0 := funext fun a => by fin_cases a <;> rfl

/-! ## What the host prepares -/

/-- The hidden state in the narrower format is the hidden state. -/
theorem entry_h (c : Dev nD) : (Hand.V m c main_v0 : S16384x64.Idx → EReal) = (argsAt m c).h := by
  show StableHlo.after hostOps0 (fun b => m (c, b)) (Proc.devRef .tc main_v0) = _
  after_results
  rfl

theorem entry_Wx_raw (c : Dev nD) : (Hand.V m c main_v1 : S256x64.Idx → EReal)
    = concatenate S256x64 0 [⟨S64x64, (argsAt m c).Wxi⟩, ⟨S64x64, (argsAt m c).Wxf⟩, ⟨S64x64, (argsAt m c).Wxo⟩, ⟨S64x64, (argsAt m c).Wxu⟩]
        concatenates_S64x64_S64x64_S64x64_S64x64_S256x64_d0 := by
  show StableHlo.after hostOps0 (fun b => m (c, b)) (Proc.devRef .tc main_v1) = _
  after_results
  rfl

theorem entry_bx_raw (c : Dev nD) : (Hand.V m c main_v2 : S256.Idx → EReal)
    = concatenate S256 0 [⟨S64, (argsAt m c).bxi⟩, ⟨S64, (argsAt m c).bxf⟩, ⟨S64, (argsAt m c).bxo⟩, ⟨S64, (argsAt m c).bxu⟩]
        concatenates_S64_S64_S64_S64_S256_d0 := by
  show StableHlo.after hostOps0 (fun b => m (c, b)) (Proc.devRef .tc main_v2) = _
  after_results
  rfl

theorem entry_Wh_raw (c : Dev nD) : (Hand.V m c main_v3 : S256x64.Idx → EReal)
    = concatenate S256x64 0 [⟨S64x64, (argsAt m c).Whi⟩, ⟨S64x64, (argsAt m c).Whf⟩, ⟨S64x64, (argsAt m c).Who⟩, ⟨S64x64, (argsAt m c).Whu⟩]
        concatenates_S64x64_S64x64_S64x64_S64x64_S256x64_d0 := by
  show StableHlo.after hostOps0 (fun b => m (c, b)) (Proc.devRef .tc main_v3) = _
  after_results
  rfl

theorem entry_bh_raw (c : Dev nD) : (Hand.V m c main_v4 : S256.Idx → EReal)
    = concatenate S256 0 [⟨S64, (argsAt m c).bhi⟩, ⟨S64, (argsAt m c).bhf⟩, ⟨S64, (argsAt m c).bho⟩, ⟨S64, (argsAt m c).bhu⟩]
        concatenates_S64_S64_S64_S64_S256_d0 := by
  show StableHlo.after hostOps0 (fun b => m (c, b)) (Proc.devRef .tc main_v4) = _
  after_results
  rfl

/-! ## The blocks a tile sees -/

/-- The block index maps, decided over the 64 tiles: the three row-tiled inputs and the output move with the tile
    along the rows; the resident arrays stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem tiles_eq : cfg0.N = 64 := N_0

/-- Tile `t` as a number below 64. -/
abbrev tileOf (t : Fin cfg0.N) : Fin 64 := ⟨t.val, Nat.lt_of_lt_of_eq t.isLt tiles_eq⟩

/-- The input block at tile `t` is the tile's rows of the input, -/
theorem block_x (c : Dev nD) (t : Fin cfg0.N) : (Hand.blockAt m c 1 t : S256x64.Idx → EReal) = rowTile (argsAt m c).x (tileOf t) := by
  funext y
  show Hand.V m c main_arg0 (((cfg0.win 1).blk t).view.emb y) = _
  rw [Hand.V_of_unwritten m c main_arg0 (by decide)]
  unfold rowTile
  show m ((c.tc : Thread nD τ).loc main_arg0) _ = m ((c.tc : Thread nD τ).loc main_arg0) _
  refine congrArg (m ((c.tc : Thread nD τ).loc main_arg0)) (funext fun a => Fin.ext ?_)
  obtain ⟨e00, e01, e10, e11, e20, e21, -⟩ := idx_facts t
  match a with
  | ⟨0, _⟩ => show win0_1.index t (0 : Fin 2) * 256 + 1 * (y 0).val = 256 * t.val + (y 0).val; omega
  | ⟨1, _⟩ => show win0_1.index t (1 : Fin 2) * 64 + 1 * (y 1).val = (y 1).val; omega
/-- the previous-cell block the tile's rows of the previous cell state, -/
theorem block_c (c : Dev nD) (t : Fin cfg0.N) : (Hand.blockAt m c 2 t : S256x64.Idx → EReal) = rowTile (argsAt m c).c (tileOf t) := by
  funext y
  show Hand.V m c main_arg2 (((cfg0.win 2).blk t).view.emb y) = _
  rw [Hand.V_of_unwritten m c main_arg2 (by decide)]
  unfold rowTile
  show m ((c.tc : Thread nD τ).loc main_arg2) _ = m ((c.tc : Thread nD τ).loc main_arg2) _
  refine congrArg (m ((c.tc : Thread nD τ).loc main_arg2)) (funext fun a => Fin.ext ?_)
  obtain ⟨e00, e01, e10, e11, e20, e21, -⟩ := idx_facts t
  match a with
  | ⟨0, _⟩ => show win0_2.index t (0 : Fin 2) * 256 + 1 * (y 0).val = 256 * t.val + (y 0).val; omega
  | ⟨1, _⟩ => show win0_2.index t (1 : Fin 2) * 64 + 1 * (y 1).val = (y 1).val; omega
/-- and the adjacency block the tile's rows of the adjacency matrix. -/
theorem block_A (c : Dev nD) (t : Fin cfg0.N) : (Hand.blockAt m c 0 t : S256x16384.Idx → EReal) = rowTile (argsAt m c).A (tileOf t) := by
  funext y
  show Hand.V m c main_arg3 (((cfg0.win 0).blk t).view.emb y) = _
  rw [Hand.V_of_unwritten m c main_arg3 (by decide)]
  unfold rowTile
  show m ((c.tc : Thread nD τ).loc main_arg3) _ = m ((c.tc : Thread nD τ).loc main_arg3) _
  refine congrArg (m ((c.tc : Thread nD τ).loc main_arg3)) (funext fun a => Fin.ext ?_)
  obtain ⟨e00, e01, e10, e11, e20, e21, -⟩ := idx_facts t
  match a with
  | ⟨0, _⟩ => show win0_0.index t (0 : Fin 2) * 256 + 1 * (y 0).val = 256 * t.val + (y 0).val; omega
  | ⟨1, _⟩ => show win0_0.index t (1 : Fin 2) * 16384 + 1 * (y 1).val = (y 1).val; omega

/-- The hidden state is seen whole at every tile, -/
theorem block_h (c : Dev nD) (t : Fin cfg0.N) : (Hand.blockAt m c 3 t : S16384x64.Idx → EReal) = (argsAt m c).h := by
  funext y
  show Hand.V m c main_v0 (((cfg0.win 3).blk t).view.emb y) = _
  rw [← entry_h m c]
  refine congrArg (Hand.V m c main_v0) (funext fun a => Fin.ext ?_)
  obtain ⟨-, -, -, -, -, -, e30, e31, -⟩ := idx_facts t
  match a with
  | ⟨0, _⟩ => show win0_3.index t (0 : Fin 2) * 16384 + 1 * (y 0).val = (y 0).val; omega
  | ⟨1, _⟩ => show win0_3.index t (1 : Fin 2) * 64 + 1 * (y 1).val = (y 1).val; omega

/-- as are the four stacked arrays: each resident window's block is its whole array as the region finds it. -/
theorem block_Wx (c : Dev nD) (t : Fin cfg0.N) : (Hand.blockAt m c 4 t : S256x64.Idx → EReal) = (Hand.V m c main_v1 : S256x64.Idx → EReal) := by
  funext y
  show Hand.V m c main_v1 (((cfg0.win 4).blk t).view.emb y) = _
  refine congrArg (Hand.V m c main_v1) (funext fun a => Fin.ext ?_)
  obtain ⟨-, -, -, -, -, -, -, -, e40, e41, -⟩ := idx_facts t
  match a with
  | ⟨0, _⟩ => show win0_4.index t (0 : Fin 2) * 256 + 1 * (y 0).val = (y 0).val; omega
  | ⟨1, _⟩ => show win0_4.index t (1 : Fin 2) * 64 + 1 * (y 1).val = (y 1).val; omega

theorem block_bx (c : Dev nD) (t : Fin cfg0.N) : (Hand.blockAt m c 5 t : S256.Idx → EReal) = (Hand.V m c main_v2 : S256.Idx → EReal) := by
  funext y
  show Hand.V m c main_v2 (((cfg0.win 5).blk t).view.emb y) = _
  refine congrArg (Hand.V m c main_v2) (funext fun a => Fin.ext ?_)
  obtain ⟨-, -, -, -, -, -, -, -, -, -, e50, -⟩ := idx_facts t
  match a with
  | ⟨0, _⟩ => show win0_5.index t (0 : Fin 1) * 256 + 1 * (y 0).val = (y 0).val; omega

theorem block_Wh (c : Dev nD) (t : Fin cfg0.N) : (Hand.blockAt m c 6 t : S256x64.Idx → EReal) = (Hand.V m c main_v3 : S256x64.Idx → EReal) := by
  funext y
  show Hand.V m c main_v3 (((cfg0.win 6).blk t).view.emb y) = _
  refine congrArg (Hand.V m c main_v3) (funext fun a => Fin.ext ?_)
  obtain ⟨-, -, -, -, -, -, -, -, -, -, -, e60, e61, -⟩ := idx_facts t
  match a with
  | ⟨0, _⟩ => show win0_6.index t (0 : Fin 2) * 256 + 1 * (y 0).val = (y 0).val; omega
  | ⟨1, _⟩ => show win0_6.index t (1 : Fin 2) * 64 + 1 * (y 1).val = (y 1).val; omega

theorem block_bh (c : Dev nD) (t : Fin cfg0.N) : (Hand.blockAt m c 7 t : S256.Idx → EReal) = (Hand.V m c main_v4 : S256.Idx → EReal) := by
  funext y
  show Hand.V m c main_v4 (((cfg0.win 7).blk t).view.emb y) = _
  refine congrArg (Hand.V m c main_v4) (funext fun a => Fin.ext ?_)
  obtain ⟨-, -, -, -, -, -, -, -, -, -, -, -, -, e70, -⟩ := idx_facts t
  match a with
  | ⟨0, _⟩ => show win0_7.index t (0 : Fin 1) * 256 + 1 * (y 0).val = (y 0).val; omega

/-! ## The output array -/

/-- Tile `t`'s block of any 16384 × 128 array is the tile's rows of it. -/
theorem block_out (G : S16384x128.Idx → EReal) (t : Fin cfg0.N) :
    (((cfg0.win 8).blk t).view.read (Elt Ideal) G : S256x128.Idx → EReal) = rowTile G (tileOf t) := by
  funext y
  show G (((cfg0.win 8).blk t).view.emb y) = _
  unfold rowTile
  refine congrArg G (funext fun a => Fin.ext ?_)
  obtain ⟨-, -, -, -, -, -, -, -, -, -, -, -, -, -, e80, e81⟩ := idx_facts t
  match a with
  | ⟨0, _⟩ => show win0_8.index t (0 : Fin 2) * 256 + 1 * (y 0).val = 256 * t.val + (y 0).val; omega
  | ⟨1, _⟩ => show win0_8.index t (1 : Fin 2) * 128 + 1 * (y 1).val = (y 1).val; omega

/-- An index of the output array is in tile `t`'s block iff each coordinate is in the block's range on its axis. -/
theorem mem_out_block (t : Fin cfg0.N) (i : S16384x128.Idx) :
    i ∈ ((cfg0.win 8).blk t).view.set ↔ ∀ a : Fin 2, win0_8.index t a * S256x128.size a ≤ (i a).val ∧ (i a).val < win0_8.index t a * S256x128.size a + S256x128.size a := by
  show i ∈ ((View.whole main_v5).slice (win0_8.rect t)).set ↔ _
  rw [View.set_slice_whole, Rect.mem_set_unit]
  exact Iff.rfl

/-- The 64 tiles' blocks cover the output array: row `r` is in tile `r / 256`'s block. -/
theorem out_cover (i : S16384x128.Idx) : ∃ t : Fin cfg0.N, (cfg0.win 8).flush t = true ∧ i ∈ ((cfg0.win 8).blk t).view.set := by
  have hi0 : (i 0).val < 16384 := (i 0).isLt
  have hi1 : (i 1).val < 128 := (i 1).isLt
  have hN : cfg0.N = 64 := tiles_eq
  refine ⟨⟨(i 0).val / 256, by rw [hN]; omega⟩, flush0_8 _, ?_⟩
  rw [mem_out_block]
  obtain ⟨-, -, -, -, -, -, -, -, -, -, -, -, -, -, e80, e81⟩ := idx_facts ⟨(i 0).val / 256, by rw [hN]; omega⟩
  intro a
  match a with
  | ⟨0, _⟩ =>
    show win0_8.index _ (0 : Fin 2) * 256 ≤ (i 0).val ∧ (i 0).val < win0_8.index _ (0 : Fin 2) * 256 + 256
    rw [e80]; show (i 0).val / 256 * 256 ≤ (i 0).val ∧ (i 0).val < (i 0).val / 256 * 256 + 256; omega
  | ⟨1, _⟩ =>
    show win0_8.index _ (1 : Fin 2) * 128 ≤ (i 1).val ∧ (i 1).val < win0_8.index _ (1 : Fin 2) * 128 + 128
    rw [e81]; omega

/-! ## What a tile writes back, and the array at the end -/

/-- The stacked arrays the host prepares are the stacks of the gates' weights and biases. -/
theorem entry_Wx (c : Dev nD) : (Hand.V m c main_v1 : S256x64.Idx → EReal) = (argsAt m c).WxAll :=
  (entry_Wx_raw m c).trans (stack_rows _ _ _ _)
theorem entry_bx (c : Dev nD) : (Hand.V m c main_v2 : S256.Idx → EReal) = (argsAt m c).bxAll :=
  (entry_bx_raw m c).trans (stack_entries _ _ _ _)
theorem entry_Wh (c : Dev nD) : (Hand.V m c main_v3 : S256x64.Idx → EReal) = (argsAt m c).WhAll :=
  (entry_Wh_raw m c).trans (stack_rows _ _ _ _)
theorem entry_bh (c : Dev nD) : (Hand.V m c main_v4 : S256.Idx → EReal) = (argsAt m c).bhAll :=
  (entry_bh_raw m c).trans (stack_entries _ _ _ _)

/-- The body's output block is the tile form of the step over what its eight input buffers read: the one store's
    value is the gating arithmetic, and the loop's final sum is the eight slabs added up. -/
theorem outBlock_eq (x0 : Vec Ideal S256x16384 .f32) (x1 x2 : Vec Ideal S256x64 .f32) (x3 : Vec Ideal S16384x64 .bf16)
    (x4 : Vec Ideal S256x64 .f32) (x5 : Vec Ideal S256 .f32) (x6 : Vec Ideal S256x64 .f32) (x7 : Vec Ideal S256 .f32) :
    Hand.outBlock (F := Ideal) x0 x1 x2 x3 x4 x5 x6 x7 = tileOut x1 (slabSum x0 x3 8) x2 x4 x5 x6 x7 := by
  unfold Hand.outBlock
  rw [View.canon_unit_zero zeros2]
  simp only [View.ld_unit_zero (S := S256x64) zeros2, View.ld_unit_zero (S := S256) zeros1]
  rw [TilePayload.pay3_eq, accAt_final]

/-- WHAT TILE `t` WRITES BACK is the tile's rows of the two results side by side. -/
theorem flushed_eq (c : Dev nD) (t : Fin cfg0.N) :
    (Hand.dats m 0 c).flushed 8 t = ((cfg0.win 8).blk t).view.read (Elt Ideal) (wide (argsAt m c)) := by
  show (cfg0.win 8).cut (grid0.coords t) ((Hand.dats m 0 c).after 8 t) = _
  rw [Hand.after8, block_out]
  refine (outBlock_eq _ _ _ _ _ _ _ _).trans ?_
  rw [block_A, block_x, block_c, block_h, block_Wx, block_bx, block_Wh, block_bh, entry_Wx, entry_bx, entry_Wh, entry_bh]
  exact tile_eq (argsAt m c) (tileOf t)

/-- The region's output array ends as the two results side by side. -/
theorem out_final (c : Dev nD) : (Hand.dats m 0 c).arrAt 8 cfg0.N = wide (argsAt m c) :=
  (Hand.dats m 0 c).arrAt_eq_of_cover 8 (wide (argsAt m c)) (fun t _ => flushed_eq m c t) out_cover

/-- The program's run with its two results named: the new hidden state and the new cell state of the step on the
    launch arguments; the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v6) = (argsAt m c).hiddenArr
      ∧ r.2.mem ((c.tc : Thread nD τ).loc main_v7) = (argsAt m c).cellArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c).1.trans (by rw [out_final]; exact wide_left _),
    (h c).2.1.trans (by rw [out_final]; exact wide_right _), (h c).2.2⟩) (Hand.run_post m ρ)

end Cert.KernelIdeal.HandValue

end
-- ==== Proof.RefSpec.lean ====
/-
  The reference program computes the specification.

  The reference's host program states a graph-convolutional LSTM step as seventy-five array operations:
  the aggregate g = A · h, then for each of the four gates the pre-activation (x · Wxᵀ + bx) + (g · Whᵀ + bh),
  the logistic function spelled 1 / (1 + e^(-p)), and the two state updates. Read at one index (r, j), each
  array operation is the corresponding operation on extended reals, every matrix product is a finite sum over
  its contracted coordinate, a transposed weight matrix read at (k, j) is the matrix at (j, k), and a bias
  broadcast along the rows reads the bias at j. Composed, the element at (r, j) of the program's two results
  is `Args.hidden r j` and `Args.cell r j` of the specification.

  The four gates are one computation on different weights, so the pre-activation is read once, for arbitrary
  weights (`gate_pre`), and then under the logistic function (`gate_sigmoid`) and under tanh (`gate_tanh`).
-/
import proofs.«140344_j68436008895010_2_alg».proof.Proof.Gen.ReferenceIdeal.Read
import proofs.«140344_j68436008895010_2_alg».proof.Proof.Spec
import Idealize.ShloMosaic.Lib.IdealHost

noncomputable section

namespace Cert.ReferenceIdeal.RefSpec

open Cert.ReferenceIdeal Cert.ReferenceIdeal.Read Cert.GraphLstm Idealize.ShloMosaic Idealize.ShloMosaic.ValueIdx
open Idealize.SL.Sem

/-- Two rank-2 indices are equal when their coordinates are, and likewise at rank 1. -/
local macro "idx2" : tactic =>
  `(tactic| (funext a; refine Fin.ext ?_; match a with | ⟨0, _⟩ => rfl | ⟨1, _⟩ => rfl))
local macro "idx1" : tactic =>
  `(tactic| (funext a; refine Fin.ext ?_; match a with | ⟨0, _⟩ => rfl))

/-! ## One gate -/

/-- A gate's pre-activation at (r, j): the sum of the input's projection with its bias and the aggregate's
    projection with its bias, each projection a sum over the 64 features, the aggregate a sum over the nodes. -/
theorem gate_pre (x h : Mat 16384 64) (A : Mat 16384 16384) (Wx : Mat 64 64) (bx : Vc 64) (Wh : Mat 64 64) (bh : Vc 64)
    (r : Fin 16384) (j : Fin 64) :
    val_main_v11 (F := Ideal) x h A Wx bx Wh bh (ix2 r j) = pre x (agg A h) Wx bx Wh bh r j := by
  rw [val_main_v11_apply, val_main_v5_apply, val_main_v10_apply, val_main_v2_apply, val_main_v4_apply,
    val_main_v3_apply, val_main_v7_apply, val_main_v9_apply, val_main_v8_apply]
  simp only [val_main_v1_apply, val_main_v6_apply, val_main_v0_apply, Ideal.addf_def]
  -- the composed index maps, by coordinates
  have e1 : ∀ k : Fin 64, lidx_main_v2 (ix2 r j) k = ix2 r k := fun k => by idx2
  have e2 : ∀ k : Fin 64, idx_main_v1 (ridx_main_v2 (ix2 r j) k) = ix2 j k := fun k => by idx2
  have e3 : idx_main_v3 (idx_main_v4 (ix2 r j)) = ix1 j := by idx1
  have e4 : ∀ (k : Fin 64) (n : Fin 16384), lidx_main_v0 (lidx_main_v7 (ix2 r j) k) n = ix2 r n := fun k n => by idx2
  have e5 : ∀ (k : Fin 64) (n : Fin 16384), ridx_main_v0 (lidx_main_v7 (ix2 r j) k) n = ix2 n k := fun k n => by idx2
  have e6 : ∀ k : Fin 64, idx_main_v6 (ridx_main_v7 (ix2 r j) k) = ix2 j k := fun k => by idx2
  have e7 : idx_main_v8 (idx_main_v9 (ix2 r j)) = ix1 j := by idx1
  simp only [e1, e2, e3, e4, e5, e6, e7]
  rfl

/-- The logistic function as the program spells it, one over one plus the exponential of the negated
    pre-activation (the literal is the number one), is `Ideal.logistic` of the pre-activation. -/
theorem gate_sigmoid (x h : Mat 16384 64) (A : Mat 16384 16384) (Wx : Mat 64 64) (bx : Vc 64) (Wh : Mat 64 64) (bh : Vc 64)
    (r : Fin 16384) (j : Fin 64) :
    val_main_v17 (F := Ideal) x h A Wx bx Wh bh (ix2 r j) = Ideal.logistic (pre x (agg A h) Wx bx Wh bh r j) := by
  rw [val_main_v17_apply, val_main_v16_apply, val_main_cst_0_apply, val_main_v15_apply, val_main_v14_apply,
    val_main_cst_apply, val_main_v13_apply, val_main_v12_apply, gate_pre]
  simp only [Ideal.hostDivf_def, Ideal.addf_def, Ideal.hostUnary_exp_def, Ideal.hostNegf_def, Ideal.negf_def,
    Ideal.ofBits_def, Ideal.ofBits_one_f32]
  rfl

/-- The candidate gate: tanh of the pre-activation. -/
theorem gate_tanh (x h : Mat 16384 64) (A : Mat 16384 16384) (Wx : Mat 64 64) (bx : Vc 64) (Wh : Mat 64 64) (bh : Vc 64)
    (r : Fin 16384) (j : Fin 64) :
    val_main_v63 (F := Ideal) x h A Wx bx Wh bh (ix2 r j) = Ideal.tanh (pre x (agg A h) Wx bx Wh bh r j) := by
  rw [val_main_v63_apply, Ideal.hostUnary_tanh_def]
  exact congrArg Ideal.tanh (gate_pre x h A Wx bx Wh bh r j)

/-! ## The four gates of the step

Each gate's operations are the generic gate's on that gate's weights. -/

section Step

variable (P : Args)

theorem sigmoid_i (r : Fin 16384) (j : Fin 64) :
    val_main_v17 (F := Ideal) P.x P.h P.A P.Wxi P.bxi P.Whi P.bhi (ix2 r j) = Ideal.logistic (P.preI r j) :=
  gate_sigmoid P.x P.h P.A P.Wxi P.bxi P.Whi P.bhi r j

theorem sigmoid_f (r : Fin 16384) (j : Fin 64) :
    val_main_v34 (F := Ideal) P.x P.h P.A P.Wxf P.bxf P.Whf P.bhf (ix2 r j) = Ideal.logistic (P.preF r j) :=
  gate_sigmoid P.x P.h P.A P.Wxf P.bxf P.Whf P.bhf r j

theorem sigmoid_o (r : Fin 16384) (j : Fin 64) :
    val_main_v51 (F := Ideal) P.x P.h P.A P.Wxo P.bxo P.Who P.bho (ix2 r j) = Ideal.logistic (P.preO r j) :=
  gate_sigmoid P.x P.h P.A P.Wxo P.bxo P.Who P.bho r j

theorem tanh_u (r : Fin 16384) (j : Fin 64) :
    val_main_v63 (F := Ideal) P.x P.h P.A P.Wxu P.bxu P.Whu P.bhu (ix2 r j) = Ideal.tanh (P.preU r j) :=
  gate_tanh P.x P.h P.A P.Wxu P.bxu P.Whu P.bhu r j

/-! ## The two results -/

/-- The new cell state at (r, j). -/
theorem cell_at (r : Fin 16384) (j : Fin 64) :
    val_main_v66 (F := Ideal) P.x P.h P.c P.A P.Wxi P.bxi P.Whi P.bhi P.Wxf P.bxf P.Whf P.bhf P.Wxu P.bxu P.Whu P.bhu (ix2 r j)
      = P.cell r j := by
  rw [val_main_v66_apply, val_main_v64_apply, val_main_v65_apply, sigmoid_f, sigmoid_i, tanh_u]
  rfl

/-- The new hidden state at (r, j). -/
theorem hidden_at (r : Fin 16384) (j : Fin 64) :
    val_main_v68 (F := Ideal) P.x P.h P.c P.A P.Wxi P.bxi P.Whi P.bhi P.Wxf P.bxf P.Whf P.bhf P.Wxo P.bxo P.Who P.bho
        P.Wxu P.bxu P.Whu P.bhu (ix2 r j)
      = P.hidden r j := by
  rw [val_main_v68_apply, val_main_v67_apply, sigmoid_o, cell_at, Ideal.hostUnary_tanh_def]
  rfl

/-- The program's second result is the specification's cell state. -/
theorem cell_eq :
    val_main_v66 (F := Ideal) P.x P.h P.c P.A P.Wxi P.bxi P.Whi P.bhi P.Wxf P.bxf P.Whf P.bhf P.Wxu P.bxu P.Whu P.bhu
      = P.cellArr := by
  funext i
  obtain ⟨r, j, rfl⟩ : ∃ (r : Fin 16384) (j : Fin 64), i = ix2 r j := ⟨i 0, i 1, eq_ix2 i⟩
  exact cell_at P r j

/-- The program's first result is the specification's hidden state. -/
theorem hidden_eq :
    val_main_v68 (F := Ideal) P.x P.h P.c P.A P.Wxi P.bxi P.Whi P.bhi P.Wxf P.bxf P.Whf P.bhf P.Wxo P.bxo P.Who P.bho
        P.Wxu P.bxu P.Whu P.bhu
      = P.hiddenArr := by
  funext i
  obtain ⟨r, j, rfl⟩ : ∃ (r : Fin 16384) (j : Fin 64), i = ix2 r j := ⟨i 0, i 1, eq_ix2 i⟩
  exact hidden_at P r j

end Step

/-! ## The run's two results

The run of the program states its results as terms of the memory's contents at the twenty argument buffers.
Bundled as the specification's arguments, those terms are the specification's two arrays. -/

section Run

open Cert.ReferenceIdeal.Gen Idealize.ShloMosaic.TcCoe Idealize.ShloMosaic.StableHlo

/-- The step's arguments read from a memory `m` on device `c`: input, previous hidden state, previous cell
    state, adjacency, then each gate's input weights and bias and aggregate weights and bias, the gates in the
    order input, forget, output, candidate. -/
def argsOf (m : (ℓ : Loc nD τ sig) → Buf (Elt Ideal) ℓ) (c : Dev nD) : Args where
  x := m ((c.tc : Thread nD τ).loc main_arg0)
  h := m ((c.tc : Thread nD τ).loc main_arg1)
  c := m ((c.tc : Thread nD τ).loc main_arg2)
  A := m ((c.tc : Thread nD τ).loc main_arg3)
  Wxi := m ((c.tc : Thread nD τ).loc main_arg4)
  bxi := m ((c.tc : Thread nD τ).loc main_arg5)
  Whi := m ((c.tc : Thread nD τ).loc main_arg6)
  bhi := m ((c.tc : Thread nD τ).loc main_arg7)
  Wxf := m ((c.tc : Thread nD τ).loc main_arg8)
  bxf := m ((c.tc : Thread nD τ).loc main_arg9)
  Whf := m ((c.tc : Thread nD τ).loc main_arg10)
  bhf := m ((c.tc : Thread nD τ).loc main_arg11)
  Wxo := m ((c.tc : Thread nD τ).loc main_arg12)
  bxo := m ((c.tc : Thread nD τ).loc main_arg13)
  Who := m ((c.tc : Thread nD τ).loc main_arg14)
  bho := m ((c.tc : Thread nD τ).loc main_arg15)
  Wxu := m ((c.tc : Thread nD τ).loc main_arg16)
  bxu := m ((c.tc : Thread nD τ).loc main_arg17)
  Whu := m ((c.tc : Thread nD τ).loc main_arg18)
  bhu := m ((c.tc : Thread nD τ).loc main_arg19)

/-- The run's first result is the specification's hidden state of the memory's arguments. -/
theorem res_hidden (m : (ℓ : Loc nD τ sig) → Buf (Elt Ideal) ℓ) (c : Dev nD) :
    Cert.ReferenceIdeal.Value.res_main_v68 m c = (argsOf m c).hiddenArr :=
  (Read.val_main_v68_eq m c).trans (hidden_eq (argsOf m c))

/-- The second result's stage, at the memory's arguments, is the specification's cell state. -/
theorem res_cell_val (m : (ℓ : Loc nD τ sig) → Buf (Elt Ideal) ℓ) (c : Dev nD) :
    val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg16)) (m ((c.tc : Thread nD τ).loc main_arg17)) (m ((c.tc : Thread nD τ).loc main_arg18)) (m ((c.tc : Thread nD τ).loc main_arg19))
      = (argsOf m c).cellArr :=
  cell_eq (argsOf m c)

/-- The second result as the composed term of the program's operations on a memory's arguments: the sum of
    the forget gate times the previous cell state and the input gate times the candidate. -/
def cellTerm {F : FTy → Type} [FloatOps F] (m : (ℓ : Loc nD τ sig) → Buf (Elt F) ℓ) (c : Dev nD) :
    Buf (Elt F) ((c.tc : Thread nD τ).loc main_v66) :=
  addf (mulf (Host.divf (broadcastInDim S16384x64 ![] bcast_S_S16384x64 (constant S_ .f32 0x3F800000#32)) (addf (broadcastInDim S16384x64 ![] bcast_S_S16384x64 (constant S_ .f32 0x3F800000#32)) (Host.exp (Host.negf (addf (addf (Host.dotGeneral dot_S16384x64_S64x64_S16384x64_1_0_0_1_n_n none (m ((c.tc : Thread nD τ).loc main_arg0)) (transpose S64x64 [1, 0] (m ((c.tc : Thread nD τ).loc main_arg8)) transposes_S64x64_S64x64_1_0)) (broadcastInDim S16384x64 ![0, 1] bcast_S1x64_S16384x64_0_1 (broadcastInDim S1x64 ![1] bcast_S64_S1x64_1 (m ((c.tc : Thread nD τ).loc main_arg9))))) (addf (Host.dotGeneral dot_S16384x64_S64x64_S16384x64_1_0_0_1_n_n none (Host.dotGeneral dot_S16384x16384_S16384x64_S16384x64_1_0_0_1_n_n none (m ((c.tc : Thread nD τ).loc main_arg3)) (m ((c.tc : Thread nD τ).loc main_arg1))) (transpose S64x64 [1, 0] (m ((c.tc : Thread nD τ).loc main_arg10)) transposes_S64x64_S64x64_1_0)) (broadcastInDim S16384x64 ![0, 1] bcast_S1x64_S16384x64_0_1 (broadcastInDim S1x64 ![1] bcast_S64_S1x64_1 (m ((c.tc : Thread nD τ).loc main_arg11)))))))))) (m ((c.tc : Thread nD τ).loc main_arg2))) (mulf (Host.divf (broadcastInDim S16384x64 ![] bcast_S_S16384x64 (constant S_ .f32 0x3F800000#32)) (addf (broadcastInDim S16384x64 ![] bcast_S_S16384x64 (constant S_ .f32 0x3F800000#32)) (Host.exp (Host.negf (addf (addf (Host.dotGeneral dot_S16384x64_S64x64_S16384x64_1_0_0_1_n_n none (m ((c.tc : Thread nD τ).loc main_arg0)) (transpose S64x64 [1, 0] (m ((c.tc : Thread nD τ).loc main_arg4)) transposes_S64x64_S64x64_1_0)) (broadcastInDim S16384x64 ![0, 1] bcast_S1x64_S16384x64_0_1 (broadcastInDim S1x64 ![1] bcast_S64_S1x64_1 (m ((c.tc : Thread nD τ).loc main_arg5))))) (addf (Host.dotGeneral dot_S16384x64_S64x64_S16384x64_1_0_0_1_n_n none (Host.dotGeneral dot_S16384x16384_S16384x64_S16384x64_1_0_0_1_n_n none (m ((c.tc : Thread nD τ).loc main_arg3)) (m ((c.tc : Thread nD τ).loc main_arg1))) (transpose S64x64 [1, 0] (m ((c.tc : Thread nD τ).loc main_arg6)) transposes_S64x64_S64x64_1_0)) (broadcastInDim S16384x64 ![0, 1] bcast_S1x64_S16384x64_0_1 (broadcastInDim S1x64 ![1] bcast_S64_S1x64_1 (m ((c.tc : Thread nD τ).loc main_arg7)))))))))) (Host.tanh (addf (addf (Host.dotGeneral dot_S16384x64_S64x64_S16384x64_1_0_0_1_n_n none (m ((c.tc : Thread nD τ).loc main_arg0)) (transpose S64x64 [1, 0] (m ((c.tc : Thread nD τ).loc main_arg16)) transposes_S64x64_S64x64_1_0)) (broadcastInDim S16384x64 ![0, 1] bcast_S1x64_S16384x64_0_1 (broadcastInDim S1x64 ![1] bcast_S64_S1x64_1 (m ((c.tc : Thread nD τ).loc main_arg17))))) (addf (Host.dotGeneral dot_S16384x64_S64x64_S16384x64_1_0_0_1_n_n none (Host.dotGeneral dot_S16384x16384_S16384x64_S16384x64_1_0_0_1_n_n none (m ((c.tc : Thread nD τ).loc main_arg3)) (m ((c.tc : Thread nD τ).loc main_arg1))) (transpose S64x64 [1, 0] (m ((c.tc : Thread nD τ).loc main_arg18)) transposes_S64x64_S64x64_1_0)) (broadcastInDim S16384x64 ![0, 1] bcast_S1x64_S16384x64_0_1 (broadcastInDim S1x64 ![1] bcast_S64_S1x64_1 (m ((c.tc : Thread nD τ).loc main_arg19))))))))

/-- The run's second result is the specification's cell state of the memory's arguments. -/
theorem res_cell (m : (ℓ : Loc nD τ sig) → Buf (Elt Ideal) ℓ) (c : Dev nD) :
    cellTerm m c = (argsOf m c).cellArr :=
  (Read.val_main_v66_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg16)) (m ((c.tc : Thread nD τ).loc main_arg17)) (m ((c.tc : Thread nD τ).loc main_arg18)) (m ((c.tc : Thread nD τ).loc main_arg19))).trans (res_cell_val m c)

/-- The reference computes the specification: from any memory, every weakly fair execution of the program ends
    with the first result buffer at the specification's hidden state and the second at its cell state, both of
    the memory's arguments, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68) = (argsOf m c).hiddenArr
      ∧ r.2.mem ((c.tc : Thread nD τ).loc main_v66) = (argsOf m c).cellArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c).1.trans (res_hidden m c), (h c).2.1.trans (res_cell m c), (h c).2.2⟩)
    (Cert.ReferenceIdeal.Value.run m ρ)

end Run

end Cert.ReferenceIdeal.RefSpec

end
-- ==== Proof.lean ====
/-
  The certificate of a fused graph-convolution LSTM step against its plain reference.

  Both programs compute, over 16384 nodes with 64 features, the neighbourhood aggregate g = A · h, four gates
  σ or tanh of (x · Wxᵀ + bx) + (g · Whᵀ + bh), the cell state f · c + i · u and the hidden state o · tanh(cell).
  The kernel does it tile by tile (256 rows at a time), summing the aggregate over eight column slabs, with the
  four gates' weights stacked into one matrix per path and the two results packed side by side; the reference
  does it with whole-array operations and the logistic function spelled 1 / (1 + e^(-x)). On the extended reals the
  two are one function of the arguments: a change of number format is the identity, the slabs' sums add up to the
  full sum (addition of extended reals is associative and commutative; no finiteness is needed), a stacked
  product's row 64 q + j is gate q's row j, and the logistic function is that quotient by definition.

  Proof/Spec.lean states the step as one function of the arguments; Proof/RefSpec.lean shows the reference's run
  ends at it; Proof/KIFrame.lean and Proof/KFrame.lean run the kernel program (idealized, and as printed) from any
  memory; Proof/KIValue.lean shows the idealized kernel's run ends at the same function.
-/
import proofs.«140344_j68436008895010_2_alg».proof.Defs
import proofs.«140344_j68436008895010_2_alg».proof.Proof.Gen.Kernel
import proofs.«140344_j68436008895010_2_alg».proof.Proof.Gen.Kernel.Skeleton
import proofs.«140344_j68436008895010_2_alg».proof.Proof.Gen.Kernel.Loops
import proofs.«140344_j68436008895010_2_alg».proof.Proof.Gen.Kernel.Launch
import proofs.«140344_j68436008895010_2_alg».proof.Proof.Gen.Kernel.Points
import proofs.«140344_j68436008895010_2_alg».proof.Proof.Gen.KernelIdeal
import proofs.«140344_j68436008895010_2_alg».proof.Proof.Gen.KernelIdeal.Skeleton
import proofs.«140344_j68436008895010_2_alg».proof.Proof.Gen.KernelIdeal.Loops
import proofs.«140344_j68436008895010_2_alg».proof.Proof.Gen.KernelIdeal.Launch
import proofs.«140344_j68436008895010_2_alg».proof.Proof.Gen.KernelIdeal.Points
import proofs.«140344_j68436008895010_2_alg».proof.Proof.Gen.ReferenceIdeal
import proofs.«140344_j68436008895010_2_alg».proof.Proof.Gen.ReferenceIdeal.Run
import proofs.«140344_j68436008895010_2_alg».proof.Proof.Gen.ReferenceIdeal.Read
import proofs.«140344_j68436008895010_2_alg».proof.Proof.Gen.Pre_finite_inputs
import proofs.«140344_j68436008895010_2_alg».proof.Proof.KFrame
import proofs.«140344_j68436008895010_2_alg».proof.Proof.KIValue
import proofs.«140344_j68436008895010_2_alg».proof.Proof.RefSpec
import Idealize.ShloMosaic.Adequacy
import Idealize.ShloMosaic.Init

noncomputable section

namespace Cert.Proof

open Idealize.ShloMosaic Idealize.SL.Sem

/-- The kernel program as printed runs from any memory and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run with the results dropped. -/
theorem frame_ri : Cert.frame_ReferenceIdeal := fun m ρ _ =>
  (θ_run Cert.ReferenceIdeal.defs _ _).mono (fun _ h c => (h c).2.2) (Cert.ReferenceIdeal.RefSpec.run_spec m ρ)

/-- Memories that agree on the twenty arguments give the same step arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.RefSpec.argsOf m' c = Cert.KernelIdeal.HandValue.argsAt m c := by
  obtain ⟨h0, h1, h2, h3, h4, h5, h6, h7, h8, h9, h10, h11, h12, h13, h14, h15, h16, h17, h18, h19⟩ := h
  unfold Cert.ReferenceIdeal.RefSpec.argsOf Cert.KernelIdeal.HandValue.argsAt
  rw [h0, h1, h2, h3, h4, h5, h6, h7, h8, h9, h10, h11, h12, h13, h14, h15, h16, h17, h18, h19]

/-- Run from memories agreeing on the arguments, the idealized kernel and the idealized reference both end with the
    step's hidden state and cell state of those arguments. -/
theorem algebraic : Cert.algebraic_KernelIdeal_ReferenceIdeal := by
  intro m ρ m' ρ' _ hagree
  refine ⟨fun c => (Cert.KernelIdeal.HandValue.argsAt m c).hiddenArr, fun c => (Cert.KernelIdeal.HandValue.argsAt m c).cellArr,
    Cert.KernelIdeal.HandValue.run m ρ, ?_⟩
  refine (θ_run Cert.ReferenceIdeal.defs _ _).mono (fun _ h c => ⟨(h c).1.trans ?_, (h c).2.1.trans ?_, (h c).2.2⟩)
    (Cert.ReferenceIdeal.RefSpec.run_spec m' ρ')
  · rw [args_agree m m' c (hagree c)]
  · rw [args_agree m m' c (hagree c)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
